-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S64x262144 : Shape := ⟨2, ![64, 262144]⟩
abbrev S1x262144 : Shape := ⟨2, ![1, 262144]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S1x262144 : S_.BroadcastsInDim S1x262144 (![] : Fin 0 → Fin S1x262144.rank)
  reducesTo_S1x262144_S_d0_1 : S1x262144.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x2048x4096 .f32) (main_arg1 : IVec S64x262144 32) (main_arg2 : FVec F S1x262144 .f32) (main_arg3 : FVec F S1x262144 .f32) (main_arg4 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S1x262144 .f32 := Host.absf main_arg2
  let main_cst_0 : FVec F S_ .f32 := constant S_ .f32 0x7F800000#32
  let main_v5 : FVec F S1x262144 .f32 := broadcastInDim S1x262144 ![] bcast_S_S1x262144 main_cst_0
  let main_v6 : IVec S1x262144 1 := cmpf .olt main_v4 main_v5
  let main_c_1 : IVec S_ 1 := constantI S_ 1 1#1
  let main_v7 : IVec S_ 1 := (fun x v => Host.reduce IntOp.andi x v reducesTo_S1x262144_S_d0_1 h_S_) main_v6 main_c_1
  let main_v8 : IVec S_ 1 := andi main_v3 main_v7
  let main_v9 : FVec F S1x262144 .f32 := Host.absf main_arg3
  let main_cst_2 : FVec F S_ .f32 := constant S_ .f32 0x7F800000#32
  let main_v10 : FVec F S1x262144 .f32 := broadcastInDim S1x262144 ![] bcast_S_S1x262144 main_cst_2
  let main_v11 : IVec S1x262144 1 := cmpf .olt main_v9 main_v10
  let main_c_3 : IVec S_ 1 := constantI S_ 1 1#1
  let main_v12 : IVec S_ 1 := (fun x v => Host.reduce IntOp.andi x v reducesTo_S1x262144_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x2048x4096 : Shape := ⟨3, ![8, 2048, 4096]⟩
abbrev S64x262144 : Shape := ⟨2, ![64, 262144]⟩
abbrev S1x262144 : Shape := ⟨2, ![1, 262144]⟩
abbrev S4096 : Shape := ⟨1, ![4096]⟩
abbrev S64x64x4096 : Shape := ⟨3, ![64, 64, 4096]⟩
abbrev S64x4096 : Shape := ⟨2, ![64, 4096]⟩
abbrev S4096x4096 : Shape := ⟨2, ![4096, 4096]⟩
abbrev S4x64x4096 : Shape := ⟨3, ![4, 64, 4096]⟩
abbrev S256x4096 : Shape := ⟨2, ![256, 4096]⟩
abbrev S1x64x4096 : Shape := ⟨3, ![1, 64, 4096]⟩
abbrev S16384x4096 : Shape := ⟨2, ![16384, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 13
  | .vmem => 15
  | .smem => 0
  | _ => 0

abbrev bufTy : (tb : Table) → Fin (tcTables nBuf tb) → BufTy
  | .hbm, ⟨0, _⟩ => ⟨S8x2048x4096, .f32⟩
  | .hbm, ⟨1, _⟩ => ⟨S64x262144, .i32⟩
  | .hbm, ⟨2, _⟩ => ⟨S1x262144, .f32⟩
  | .hbm, ⟨3, _⟩ => ⟨S1x262144, .f32⟩
  | .hbm, ⟨4, _⟩ => ⟨S4096, .f32⟩
  | .hbm, ⟨5, _⟩ => ⟨S64x64x4096, .i32⟩
  | .hbm, ⟨6, _⟩ => ⟨S64x4096, .f32⟩
  | .hbm, ⟨7, _⟩ => ⟨S64x4096, .f32⟩
  | .hbm, ⟨8, _⟩ => ⟨S4096x4096, .bf16⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S8x2048x4096, .f32⟩
  | .local _ .vmem, ⟨0, _⟩ => ⟨S4x64x4096, .i32⟩
  | .local _ .vmem, ⟨1, _⟩ => ⟨S4x64x4096, .i32⟩
  | .local _ .vmem, ⟨2, _⟩ => ⟨S64x4096, .f32⟩
  | .local _ .vmem, ⟨3, _⟩ => ⟨S64x4096, .f32⟩
  | .local _ .vmem, ⟨4, _⟩ => ⟨S256x4096, .bf16⟩
  | .local _ .vmem, ⟨5, _⟩ => ⟨S256x4096, .bf16⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | .local _ .vmem, ⟨9, _⟩ => ⟨S2048x512, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![16, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S64x262144_S64x64x4096 : S64x262144.ShapeCasts S64x64x4096
  shapeCasts_S1x262144_S64x4096 : S1x262144.ShapeCasts S64x4096
  inb_S4x64x4096_S4x64x4096_0_0_0 : ∀ a, (![0, 0, 0] : Fin 3 → Nat) a + S4x64x4096.size a ≤ S4x64x4096.size a
  h_S4x64x4096 : 0 < S4x64x4096.numel
  shapeCasts_S4x64x4096_S4x64x4096 : S4x64x4096.ShapeCasts S4x64x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  shapeCasts_S64x4096_S1x64x4096 : S64x4096.ShapeCasts S1x64x4096
  broadcasts_S1x64x4096_S4x64x4096 : S1x64x4096.Broadcasts S4x64x4096
  shapeCasts_S4x64x4096_S256x4096 : S4x64x4096.ShapeCasts S256x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S8x2048x4096_S16384x4096 : S8x2048x4096.ShapeCasts S16384x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S16384x4096_S8x2048x4096 : S16384x4096.ShapeCasts S8x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x4096.size a ≤ S64x64x4096.size a
  hwx0_0 : ∀ i : grid0.Coords, EltTy.bits .i32 = 32 ∨ (Rect.block (s := S64x64x4096) S4x64x4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x4096.size a
  hwx1_0 : ∀ i : grid1.Coords, EltTy.bits .f32 = 32 ∨ (Rect.block (s := S16384x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S16384x4096.size a
  hwx1_3 : ∀ i : grid1.Coords, EltTy.bits .f32 = 32 ∨ (Rect.block (s := S16384x4096) S1024x2048.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S4x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S64x262144 : Shape := ⟨2, ![64, 262144]⟩
abbrev S1x262144 : Shape := ⟨2, ![1, 262144]⟩
abbrev S4096 : Shape := ⟨1, ![4096]⟩
abbrev S4096x4096 : Shape := ⟨2, ![4096, 4096]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S64x262144, .i32⟩
  | .hbm, ⟨2, _⟩ => ⟨S1x262144, .f32⟩
  | .hbm, ⟨3, _⟩ => ⟨S1x262144, .f32⟩
  | .hbm, ⟨4, _⟩ => ⟨S4096, .f32⟩
  | .hbm, ⟨5, _⟩ => ⟨S64x262144, .f32⟩
  | .hbm, ⟨6, _⟩ => ⟨S64x262144, .f32⟩
  | .hbm, ⟨7, _⟩ => ⟨S64x262144, .f32⟩
  | .hbm, ⟨8, _⟩ => ⟨S64x262144, .f32⟩
  | .hbm, ⟨9, _⟩ => ⟨S64x262144, .f32⟩
  | .hbm, ⟨10, _⟩ => ⟨S4096x4096, .f32⟩
  | .hbm, ⟨11, _⟩ => ⟨S8x2048x4096, .f32⟩
  | .hbm, ⟨12, _⟩ => ⟨S1x1x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S1x262144_S64x262144_0_1 : S1x262144.BroadcastsInDim S64x262144 (![0, 1] : Fin 2 → Fin S64x262144.rank)
  shapeCasts_S64x262144_S4096x4096 : S64x262144.ShapeCasts S4096x4096
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.K.Region0.lean ====
/- REGION 0 of the program: the dequantisation call, at the contents V the region finds in the core's buffers.
   Per window its block at a grid point; what the body's one store leaves in the output window's buffer as a
   function of the three input blocks; the body's triple; the pipeline's proof data at V; the body obligation.
   Everything is generic in the float interpretation F. -/
import proofs.«114833_j82626580840596_2_alg».proof.Proof.Gen.Kernel.Launch
import proofs.«114833_j82626580840596_2_alg».proof.Proof.Gen.Kernel.Skeleton
import proofs.«114833_j82626580840596_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (block index constant over the grid: fetched at the first point only) holds its block at every
    point: where it is not fetched the index has not moved, and the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4x64x4096 := Rect.unit (s := S4x64x4096) ![0, 0, 0] S4x64x4096.size inb_S4x64x4096_S4x64x4096_0_0_0
abbrev r0_1 : Rect S64x4096 := Rect.unit (s := S64x4096) ![0, 0] S64x4096.size inb_S64x4096_S64x4096_0_0
abbrev r0_2 : Rect S256x4096 := Rect.unit (s := S256x4096) ![0, 0] S256x4096.size inb_S256x4096_S256x4096_0_0

/-! ## What the body leaves in the output window's buffer -/

/-- Window 3's staging buffer after the body, from the three input blocks: its one store, of the whole buffer. -/
def out0_3 (x0 : Vec F S4x64x4096 .i32) (x1 : Vec F S64x4096 .f32) (x2 : Vec F S64x4096 .f32) : Vec F S256x4096 .bf16 :=
  View.canon [⟨r0_2, k0_pay1 (View.ld x0 r0_0) (View.ld x1 r0_1) (View.ld x2 r0_1)⟩]

/-- The one store covers the buffer. -/
theorem cover0_3 (p0 : Vec F S256x4096 .bf16) (y : S256x4096.Idx) :
    ∃ pc ∈ ([⟨r0_2, p0⟩] : List (View.Piece (Elt F) S256x4096 .bf16)), y ∈ pc.1.set :=
  View.cover_of_tiled [⟨r0_2, p0⟩] S256x4096.size (by rfl) y

/-! ## The body's triple -/

set_option maxHeartbeats 1000000 in
/-- The body on whole staging memrefs, the inputs' at read contents x0 x1 x2 and the output's at anything, runs to
    the continuation holding the inputs' as they were and the output's at out0_3 of the inputs'. -/
theorem sound_kernel0 (c : Dev nD) (E : Set ℕ) (i : grid0.Coords) (arg1 : Memref sig .tc .vmem S4x64x4096 .i32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S256x4096 .bf16) (harg4 : arg4.IsWhole)
    (x0 : Vec F S4x64x4096 .i32) (x1 : Vec F S64x4096 .f32) (x2 : Vec F S64x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core c: the arrays as the region finds them (V); after the body at point t
    each input's buffer at its block and the output's at out0_3 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Base.lean ====
/-
  The matrix-product region (the second kernel launch): what its three cases share.

  The grid is 16 × 2 × 8, the last axis running over the eight blocks of the contracted dimension. At a point
  with last coordinate k the body clears the accumulator when k = 0, adds the product of the two current blocks
  to it, and when k = 7 writes the accumulator plus the bias row into the output block. So along the grid order
  a point is first (k = 0), middle (0 < k < 7) or last (k = 7) of its run of eight; the output block is touched
  only at last points and is written back only there.
-/
import proofs.«114833_j82626580840596_2_alg».proof.Proof.Gen.Kernel.Launch
import proofs.«114833_j82626580840596_2_alg».proof.Proof.Gen.Kernel.Skeleton
import proofs.«114833_j82626580840596_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- "This is the first block of the contracted dimension" (k = 0), as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block" (k = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a last point the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x2048 .f32 := Memref.whole cc1_scratch0
abbrev VS1 : View sig .tc .vmem S1024x2048 .f32 := scM1.view

/-- The scoped buffers of the core that this region neither stages nor uses (the first launch's staging buffers), each at
    some contents. -/
abbrev other (c : Dev nD) (b : Ref sig .tc) : sProp 𝕄 := iprop(∃ f : Buf (Elt F) ((c : Thread nD τ).loc b), ((c : Thread nD τ).loc b) ↦{fullShare} f)

/-- The region's invariant with the accumulator as a memref owned at some contents. -/
theorem PhiA1_eq (c : Dev nD) :
    (Pipeline.ΦA spec1 c : sProp 𝕄)
      = iprop(iprop(other c cc0_stg0_0 ∗ other c cc0_stg0_1 ∗ other c cc0_stg1_0 ∗ other c cc0_stg2_0 ∗ other c cc0_stg3_0 ∗ other c cc0_stg3_1
          ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.K.R1RunA.lean ====
/-
  The matrix-product body at a FIRST point of a run of eight (k = 0, not the last block): it clears the accumulator,
  adds the product of the two current blocks, and leaves the output block alone.
-/
import proofs.«114833_j82626580840596_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a first point, with the body's triple: the three input buffers and the
    untouched output buffer are handed back as found; the accumulator, found at anything, ends with the pieces written. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunB.lean ====
/-
  The matrix-product body at a MIDDLE point of a run of eight (0 < k < 7): it adds the product of the two current
  blocks to the accumulator, which it finds at what the point before left, and leaves the output block alone.
-/
import proofs.«114833_j82626580840596_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a middle point, with the body's triple. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunC.lean ====
/-
  The matrix-product body at a LAST point of a run of eight (k = 7): it adds the product of the two current blocks to
  the accumulator, then stores the accumulator plus the bias row, broadcast down the rows, into the output block.
-/
import proofs.«114833_j82626580840596_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the accumulator end with at a last point, with the body's triple. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.Region1.lean ====
/-
  The matrix-product region: what the accumulator and the output block hold after each grid point, the region's proof
  data, and the body obligation.

  Along the grid order the accumulator is rebuilt every eight points: a first point (k = 0) leaves in it the cleared
  value plus the product of its two blocks, every later point what the point before left plus its own product, and a
  last point (k = 7) moreover leaves in the output block the accumulator plus the bias row.
-/
import proofs.«114833_j82626580840596_2_alg».proof.Proof.K.R1RunA
import proofs.«114833_j82626580840596_2_alg».proof.Proof.K.R1RunB
import proofs.«114833_j82626580840596_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A first point's pieces tile the accumulator. -/
theorem scover1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i) (x0 : Vec F S1024x512 .f32) (x1 : Vec F S2048x512 .bf16) (x2 : Vec F S1x2048 .f32) (y : S1024x2048.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x2048.size (by sl_kernel_rfl) y

/-- What a first point leaves in the accumulator. -/
def sout1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i) (x0 : Vec F S1024x512 .f32) (x1 : Vec F S2048x512 .bf16) (x2 : Vec F S1x2048 .f32) : Vec F S1024x2048 .f32 :=
  VS1.read (Elt F) (VS1.writes (Elt F) VS1.junk (kernelRun1_A c i arg3 harg3 arg4 harg4 arg5 harg5 arg6 harg6 arg7 harg7 hc0 hc1 x0 x1 x2).1)

/-- A middle point's pieces tile the accumulator. -/
theorem scover1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i) (x0 : Vec F S1024x512 .f32) (x1 : Vec F S2048x512 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x2048.size (by sl_kernel_rfl) y

/-- What a middle point leaves in the accumulator. -/
def sout1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i) (x0 : Vec F S1024x512 .f32) (x1 : Vec F S2048x512 .bf16) (x2 : Vec F S1x2048 .f32) (xs0 : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 x2 xs0).1)

/-- A last point's pieces tile the output block, -/
theorem cover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- and the accumulator. -/
theorem scover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What a last point leaves in the output block, -/
def out1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- and in the accumulator. -/
def sout1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs0).2.1)

/-- A placeholder for the output block at the points that do not touch it (nothing reads it: the block is neither
    written back there nor read at the next point). -/
def out1_none : Vec F S1024x2048 .f32 := VO1_3.read (Elt F) VO1_3.junk

section Region1

variable (V : (c : Dev nD) → (b : Ref sig .tc) → Buf (Elt F) ((c : Thread nD τ).loc b))

/-! ## Point by point -/

/-- What the output block and the accumulator hold after the body at position `n` of the grid order. -/
def outsAt1 (c : Dev nD) : (n : ℕ) → n < cfg1.N → Vec F S1024x2048 .f32 × Vec F S1024x2048 .f32
  | 0, hn => (out1_none, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      (out1_none, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_none, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first point. -/
theorem outsAt1_A (c : Dev nD) (t : Fin cfg1.N) (h0 : t.val % 8 = 0) (h1 : ¬t.val % 8 = 7) :
    outsAt1 V c t.val t.isLt = (out1_none, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At a middle point: over what the point before left. -/
theorem outsAt1_B (c : Dev nD) (t : Fin cfg1.N) (h0 : ¬t.val % 8 = 0) (h1 : ¬t.val % 8 = 7) :
    outsAt1 V c t.val t.isLt = (out1_none, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point: over what the point before left. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the region's entry the scoped buffers at anything; afterwards the accumulator at what the point
    before left in it, the other scoped buffers at anything. -/
def PhiS1 (c : Dev nD) : (n : ℕ) → n ≤ cfg1.N → sProp 𝕄
  | 0, _ => Pipeline.ΦA spec1 c
  | n + 1, hn => iprop(iprop(other c cc0_stg0_0 ∗ other c cc0_stg0_1 ∗ other c cc0_stg1_0 ∗ other c cc0_stg2_0 ∗ other c cc0_stg3_0 ∗ other c cc0_stg3_1
      ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(other c cc0_stg0_0 ∗ other c cc0_stg0_1 ∗ other c cc0_stg1_0 ∗ other c cc0_stg2_0 ∗ other c cc0_stg3_0 ∗ other c cc0_stg3_1
      ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(other c cc0_stg0_0 ∗ other c cc0_stg0_1 ∗ other c cc0_stg1_0 ∗ other c cc0_stg2_0 ∗ other c cc0_stg3_0 ∗ other c cc0_stg3_1
      ∗ owns (c : Thread nD τ) scM1 fullShare ((outsAt1 V c (n - 1) (by omega)).2)) ∗ (∃ r, prngReg c r)) := by
  cases n with
  | zero => exact absurd rfl hz
  | succ n => rfl

/-! ## The proof data -/

/-- The region's proof data: the arrays as the region finds them; after the body each input's buffer at its block, the
    output's at `outsAt1`; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the position in the run of eight says which case the
    point is in; the invariant hands the body the accumulator at what the point before left (at anything at the very first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 256 := lt_of_lt_of_eq t.isLt (show cfg1.N = 256 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨R1, R2, R3, R4, R5, R6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨R1, R2, R3, R4, R5, R6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨R1, R2, R3, R4, R5, R6, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨R1, R2, R3, R4, R5, R6, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at anything: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨⟨R1, R2, R3, R4, R5, R6, HS0⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    iexists _; iexact HS0
  iexact Hg

end Region1

end Cert.Kernel.Hand

end
-- ==== Proof.K.Run.lean ====
/- THE RUN of the program: a stretch of host operations, the dequantisation region, a second stretch, the product
   region, a last stretch. The buffer contents at every boundary are a fold from the launch memory: a host stretch
   maps them through its operations, a region replaces its windows' arrays by what its write-backs leave and keeps
   every other buffer. Each region is a segment over the thread state "every unscoped buffer at the boundary's
   contents, the generator register at some state, nothing owed"; the run ends with every unscoped buffer at the
   last boundary's contents, and no stretch or region writes an argument array. Generic in the float interpretation. -/
import proofs.«114833_j82626580840596_2_alg».proof.Proof.K.Region0
import proofs.«114833_j82626580840596_2_alg».proof.Proof.K.Region1
import proofs.«114833_j82626580840596_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the core's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the core's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents the run ends with. -/
abbrev W5 : Dev nD → Valuation τ sig (Elt F) := fun c => StableHlo.after hostOps2 (W4 m ρ c)

/-! ### What a host stretch leaves alone: every buffer that is no operation's result -/

theorem hostOps0_keeps (X : Valuation τ sig (Elt F)) (r : Ref sig .tc) (h0 : r ≠ main_v0) (h1 : r ≠ main_v1) (h2 : r ≠ main_v2) :
    StableHlo.after hostOps0 X (Proc.devRef .tc r) = X (Proc.devRef .tc r) :=
  StableHlo.after_of_forall_not_mem (b := Proc.devRef .tc r) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))
theorem hostOps1_keeps (X : Valuation τ sig (Elt F)) (r : Ref sig .tc) (h0 : r ≠ main_v4) (h1 : r ≠ main_v5) :
    StableHlo.after hostOps1 X (Proc.devRef .tc r) = X (Proc.devRef .tc r) :=
  StableHlo.after_of_forall_not_mem (b := Proc.devRef .tc r) _ _ (List.forall_iff_forall_mem.mp (by
    simp only [hostOps1, List.Forall, StableHlo.reshape_writes, Finset.mem_singleton]
    exact ⟨StableHlo.devRef_ne_of_ne h0, StableHlo.devRef_ne_of_ne h1⟩))
theorem hostOps2_keeps (X : Valuation τ sig (Elt F)) (r : Ref sig .tc) (h0 : r ≠ main_v7) :
    StableHlo.after hostOps2 X (Proc.devRef .tc r) = X (Proc.devRef .tc r) :=
  StableHlo.after_of_forall_not_mem (b := Proc.devRef .tc r) _ _ (List.forall_iff_forall_mem.mp (by
    simp only [hostOps2, List.Forall, StableHlo.reshape_writes, Finset.mem_singleton]
    exact StableHlo.devRef_ne_of_ne h0))

/-- A buffer that is no host operation's result and no window's array of either region ends as launched. -/
theorem W5_of_untouched (c : Dev nD) (r : Ref sig .tc)
    (h0 : r ≠ main_v0) (h1 : r ≠ main_v1) (h2 : r ≠ main_v2) (h4 : r ≠ main_v4) (h5 : r ≠ main_v5) (h7 : r ≠ main_v7)
    (hw0 : ∀ w, Pipeline.arrRef spec0 w ≠ r) (hw1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := hostOps2_keeps _ r h7
    _ = W3 m ρ c (Proc.devRef .tc r) := W4_of_ne m ρ c r hw1
    _ = W2 m ρ c (Proc.devRef .tc r) := hostOps1_keeps _ r h4 h5
    _ = W1 m ρ c (Proc.devRef .tc r) := W2_of_ne m ρ c r hw0
    _ = W0 m ρ c (Proc.devRef .tc r) := hostOps0_keeps _ r h0 h1 h2
    _ = m ((c : Thread nD τ).loc r) := rfl

theorem W5_main_arg0 (c : Dev nD) : W5 m ρ c (Proc.devRef .tc main_arg0) = m ((c : Thread nD τ).loc main_arg0) :=
  W5_of_untouched m ρ c main_arg0 (by decide) (by decide) (by decide) (by decide) (by decide) (by decide) (by decide) (by decide)
theorem W5_main_arg1 (c : Dev nD) : W5 m ρ c (Proc.devRef .tc main_arg1) = m ((c : Thread nD τ).loc main_arg1) :=
  W5_of_untouched m ρ c main_arg1 (by decide) (by decide) (by decide) (by decide) (by decide) (by decide) (by decide) (by decide)
theorem W5_main_arg2 (c : Dev nD) : W5 m ρ c (Proc.devRef .tc main_arg2) = m ((c : Thread nD τ).loc main_arg2) :=
  W5_of_untouched m ρ c main_arg2 (by decide) (by decide) (by decide) (by decide) (by decide) (by decide) (by decide) (by decide)
theorem W5_main_arg3 (c : Dev nD) : W5 m ρ c (Proc.devRef .tc main_arg3) = m ((c : Thread nD τ).loc main_arg3) :=
  W5_of_untouched m ρ c main_arg3 (by decide) (by decide) (by decide) (by decide) (by decide) (by decide) (by decide) (by decide)
theorem W5_main_arg4 (c : Dev nD) : W5 m ρ c (Proc.devRef .tc main_arg4) = m ((c : Thread nD τ).loc main_arg4) :=
  W5_of_untouched m ρ c main_arg4 (by decide) (by decide) (by decide) (by decide) (by decide) (by decide) (by decide) (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    obligations, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the three stretches allocates a buffer. -/
theorem hops0_fresh : (hostOps0 : List (HloOp τ sig (Elt F))).Forall fun op => op.fresh = ∅ := by
  simp only [List.Forall]; repeat' constructor
theorem hops1_fresh : (hostOps1 : List (HloOp τ sig (Elt F))).Forall fun op => op.fresh = ∅ := by
  simp only [List.Forall]; repeat' constructor
theorem hops2_fresh : (hostOps2 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the obligations: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 over the thread state: entered from every unscoped buffer at W1, left at W2. Its arrays split out of
    the unscoped buffers and put back at the exit contents; the generator register into the invariant and out;
    nothing owed; no semaphore of the body's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W3, left at W4. Its invariant carries the
    accumulator between points: it is entered from the scoped rest and the generator register and gives them back
    after the last point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    iintro H
    ihave H' := (hout1 (V3 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five segments in order: a host segment per stretch from its boundary's contents, a region per call. -/
abbrev segs : List (Pipeline.Seg (pcfgs (F := F)) adm (pdats m ρ) () defs₀ 𝒱₀ L lv) :=
  [ .host (hseg hostOps0 hostOps0_sub hops0_fresh (W0 m ρ)),
    .region (reg0 m ρ),
    .host (hseg hostOps1 hostOps1_sub hops1_fresh (W2 m ρ)),
    .region (reg1 m ρ),
    .host (hseg hostOps2 hostOps2_sub hops2_fresh (W4 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the cores terminates,
    nothing faulting, and every final state has each unscoped buffer at the last boundary's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ (∃ r, prngReg c r) ∗ ∃ W, owes (c : Thread nD τ) (0 : CellTallies nD τ sig Unit) W) : sProp 𝕄)
        ⊢ iprop((StableHlo.held (c : Thread nD τ) (Pipeline.ucRefs τ sig) (W5 m ρ c) ∗ ∃ r, prngReg c r) ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: the program runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

/-- The run read at the result buffer too: it ends at the last boundary's contents, beside the frame. -/
theorem run_value : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v7 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.Kernel.Hand

end
-- ==== Proof.KI.Region0.lean ====
/- REGION 0 of the program: the dequantisation call, at the contents V the region finds in the core's buffers.
   Per window its block at a grid point; what the body's one store leaves in the output window's buffer as a
   function of the three input blocks; the body's triple; the pipeline's proof data at V; the body obligation.
   Everything is generic in the float interpretation F. -/
import proofs.«114833_j82626580840596_2_alg».proof.Proof.Gen.KernelIdeal.Launch
import proofs.«114833_j82626580840596_2_alg».proof.Proof.Gen.KernelIdeal.Skeleton
import proofs.«114833_j82626580840596_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (block index constant over the grid: fetched at the first point only) holds its block at every
    point: where it is not fetched the index has not moved, and the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4x64x4096 := Rect.unit (s := S4x64x4096) ![0, 0, 0] S4x64x4096.size inb_S4x64x4096_S4x64x4096_0_0_0
abbrev r0_1 : Rect S64x4096 := Rect.unit (s := S64x4096) ![0, 0] S64x4096.size inb_S64x4096_S64x4096_0_0
abbrev r0_2 : Rect S256x4096 := Rect.unit (s := S256x4096) ![0, 0] S256x4096.size inb_S256x4096_S256x4096_0_0

/-! ## What the body leaves in the output window's buffer -/

/-- Window 3's staging buffer after the body, from the three input blocks: its one store, of the whole buffer. -/
def out0_3 (x0 : Vec F S4x64x4096 .i32) (x1 : Vec F S64x4096 .f32) (x2 : Vec F S64x4096 .f32) : Vec F S256x4096 .bf16 :=
  View.canon [⟨r0_2, k0_pay1 (View.ld x0 r0_0) (View.ld x1 r0_1) (View.ld x2 r0_1)⟩]

/-- The one store covers the buffer. -/
theorem cover0_3 (p0 : Vec F S256x4096 .bf16) (y : S256x4096.Idx) :
    ∃ pc ∈ ([⟨r0_2, p0⟩] : List (View.Piece (Elt F) S256x4096 .bf16)), y ∈ pc.1.set :=
  View.cover_of_tiled [⟨r0_2, p0⟩] S256x4096.size (by rfl) y

/-! ## The body's triple -/

set_option maxHeartbeats 1000000 in
/-- The body on whole staging memrefs, the inputs' at read contents x0 x1 x2 and the output's at anything, runs to
    the continuation holding the inputs' as they were and the output's at out0_3 of the inputs'. -/
theorem sound_kernel0 (c : Dev nD) (E : Set ℕ) (i : grid0.Coords) (arg1 : Memref sig .tc .vmem S4x64x4096 .i32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S256x4096 .bf16) (harg4 : arg4.IsWhole)
    (x0 : Vec F S4x64x4096 .i32) (x1 : Vec F S64x4096 .f32) (x2 : Vec F S64x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core c: the arrays as the region finds them (V); after the body at point t
    each input's buffer at its block and the output's at out0_3 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Base.lean ====
/-
  The matrix-product region (the second kernel launch): what its three cases share.

  The grid is 16 × 2 × 8, the last axis running over the eight blocks of the contracted dimension. At a point
  with last coordinate k the body clears the accumulator when k = 0, adds the product of the two current blocks
  to it, and when k = 7 writes the accumulator plus the bias row into the output block. So along the grid order
  a point is first (k = 0), middle (0 < k < 7) or last (k = 7) of its run of eight; the output block is touched
  only at last points and is written back only there.
-/
import proofs.«114833_j82626580840596_2_alg».proof.Proof.Gen.KernelIdeal.Launch
import proofs.«114833_j82626580840596_2_alg».proof.Proof.Gen.KernelIdeal.Skeleton
import proofs.«114833_j82626580840596_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- "This is the first block of the contracted dimension" (k = 0), as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block" (k = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a last point the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x2048 .f32 := Memref.whole cc1_scratch0
abbrev VS1 : View sig .tc .vmem S1024x2048 .f32 := scM1.view

/-- The scoped buffers of the core that this region neither stages nor uses (the first launch's staging buffers), each at
    some contents. -/
abbrev other (c : Dev nD) (b : Ref sig .tc) : sProp 𝕄 := iprop(∃ f : Buf (Elt F) ((c : Thread nD τ).loc b), ((c : Thread nD τ).loc b) ↦{fullShare} f)

/-- The region's invariant with the accumulator as a memref owned at some contents. -/
theorem PhiA1_eq (c : Dev nD) :
    (Pipeline.ΦA spec1 c : sProp 𝕄)
      = iprop(iprop(other c cc0_stg0_0 ∗ other c cc0_stg0_1 ∗ other c cc0_stg1_0 ∗ other c cc0_stg2_0 ∗ other c cc0_stg3_0 ∗ other c cc0_stg3_1
          ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.KI.R1RunA.lean ====
/-
  The matrix-product body at a FIRST point of a run of eight (k = 0, not the last block): it clears the accumulator,
  adds the product of the two current blocks, and leaves the output block alone.
-/
import proofs.«114833_j82626580840596_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a first point, with the body's triple: the three input buffers and the
    untouched output buffer are handed back as found; the accumulator, found at anything, ends with the pieces written. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunB.lean ====
/-
  The matrix-product body at a MIDDLE point of a run of eight (0 < k < 7): it adds the product of the two current
  blocks to the accumulator, which it finds at what the point before left, and leaves the output block alone.
-/
import proofs.«114833_j82626580840596_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a middle point, with the body's triple. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunC.lean ====
/-
  The matrix-product body at a LAST point of a run of eight (k = 7): it adds the product of the two current blocks to
  the accumulator, then stores the accumulator plus the bias row, broadcast down the rows, into the output block.
-/
import proofs.«114833_j82626580840596_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the accumulator end with at a last point, with the body's triple. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.Region1.lean ====
/-
  The matrix-product region: what the accumulator and the output block hold after each grid point, the region's proof
  data, and the body obligation.

  Along the grid order the accumulator is rebuilt every eight points: a first point (k = 0) leaves in it the cleared
  value plus the product of its two blocks, every later point what the point before left plus its own product, and a
  last point (k = 7) moreover leaves in the output block the accumulator plus the bias row.
-/
import proofs.«114833_j82626580840596_2_alg».proof.Proof.KI.R1RunA
import proofs.«114833_j82626580840596_2_alg».proof.Proof.KI.R1RunB
import proofs.«114833_j82626580840596_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A first point's pieces tile the accumulator. -/
theorem scover1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i) (x0 : Vec F S1024x512 .f32) (x1 : Vec F S2048x512 .bf16) (x2 : Vec F S1x2048 .f32) (y : S1024x2048.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x2048.size (by sl_kernel_rfl) y

/-- What a first point leaves in the accumulator. -/
def sout1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i) (x0 : Vec F S1024x512 .f32) (x1 : Vec F S2048x512 .bf16) (x2 : Vec F S1x2048 .f32) : Vec F S1024x2048 .f32 :=
  VS1.read (Elt F) (VS1.writes (Elt F) VS1.junk (kernelRun1_A c i arg3 harg3 arg4 harg4 arg5 harg5 arg6 harg6 arg7 harg7 hc0 hc1 x0 x1 x2).1)

/-- A middle point's pieces tile the accumulator. -/
theorem scover1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i) (x0 : Vec F S1024x512 .f32) (x1 : Vec F S2048x512 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x2048.size (by sl_kernel_rfl) y

/-- What a middle point leaves in the accumulator. -/
def sout1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i) (x0 : Vec F S1024x512 .f32) (x1 : Vec F S2048x512 .bf16) (x2 : Vec F S1x2048 .f32) (xs0 : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 x2 xs0).1)

/-- A last point's pieces tile the output block, -/
theorem cover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- and the accumulator. -/
theorem scover1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What a last point leaves in the output block, -/
def out1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- and in the accumulator. -/
def sout1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs0).2.1)

/-- A placeholder for the output block at the points that do not touch it (nothing reads it: the block is neither
    written back there nor read at the next point). -/
def out1_none : Vec F S1024x2048 .f32 := VO1_3.read (Elt F) VO1_3.junk

section Region1

variable (V : (c : Dev nD) → (b : Ref sig .tc) → Buf (Elt F) ((c : Thread nD τ).loc b))

/-! ## Point by point -/

/-- What the output block and the accumulator hold after the body at position `n` of the grid order. -/
def outsAt1 (c : Dev nD) : (n : ℕ) → n < cfg1.N → Vec F S1024x2048 .f32 × Vec F S1024x2048 .f32
  | 0, hn => (out1_none, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      (out1_none, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_none, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first point. -/
theorem outsAt1_A (c : Dev nD) (t : Fin cfg1.N) (h0 : t.val % 8 = 0) (h1 : ¬t.val % 8 = 7) :
    outsAt1 V c t.val t.isLt = (out1_none, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At a middle point: over what the point before left. -/
theorem outsAt1_B (c : Dev nD) (t : Fin cfg1.N) (h0 : ¬t.val % 8 = 0) (h1 : ¬t.val % 8 = 7) :
    outsAt1 V c t.val t.isLt = (out1_none, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point: over what the point before left. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the region's entry the scoped buffers at anything; afterwards the accumulator at what the point
    before left in it, the other scoped buffers at anything. -/
def PhiS1 (c : Dev nD) : (n : ℕ) → n ≤ cfg1.N → sProp 𝕄
  | 0, _ => Pipeline.ΦA spec1 c
  | n + 1, hn => iprop(iprop(other c cc0_stg0_0 ∗ other c cc0_stg0_1 ∗ other c cc0_stg1_0 ∗ other c cc0_stg2_0 ∗ other c cc0_stg3_0 ∗ other c cc0_stg3_1
      ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(other c cc0_stg0_0 ∗ other c cc0_stg0_1 ∗ other c cc0_stg1_0 ∗ other c cc0_stg2_0 ∗ other c cc0_stg3_0 ∗ other c cc0_stg3_1
      ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(other c cc0_stg0_0 ∗ other c cc0_stg0_1 ∗ other c cc0_stg1_0 ∗ other c cc0_stg2_0 ∗ other c cc0_stg3_0 ∗ other c cc0_stg3_1
      ∗ owns (c : Thread nD τ) scM1 fullShare ((outsAt1 V c (n - 1) (by omega)).2)) ∗ (∃ r, prngReg c r)) := by
  cases n with
  | zero => exact absurd rfl hz
  | succ n => rfl

/-! ## The proof data -/

/-- The region's proof data: the arrays as the region finds them; after the body each input's buffer at its block, the
    output's at `outsAt1`; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the position in the run of eight says which case the
    point is in; the invariant hands the body the accumulator at what the point before left (at anything at the very first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 256 := lt_of_lt_of_eq t.isLt (show cfg1.N = 256 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨R1, R2, R3, R4, R5, R6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨R1, R2, R3, R4, R5, R6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨R1, R2, R3, R4, R5, R6, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨R1, R2, R3, R4, R5, R6, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at anything: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨⟨R1, R2, R3, R4, R5, R6, HS0⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    iexists _; iexact HS0
  iexact Hg

end Region1

end Cert.KernelIdeal.Hand

end
-- ==== Proof.KI.Run.lean ====
/- THE RUN of the program: a stretch of host operations, the dequantisation region, a second stretch, the product
   region, a last stretch. The buffer contents at every boundary are a fold from the launch memory: a host stretch
   maps them through its operations, a region replaces its windows' arrays by what its write-backs leave and keeps
   every other buffer. Each region is a segment over the thread state "every unscoped buffer at the boundary's
   contents, the generator register at some state, nothing owed"; the run ends with every unscoped buffer at the
   last boundary's contents, and no stretch or region writes an argument array. Generic in the float interpretation. -/
import proofs.«114833_j82626580840596_2_alg».proof.Proof.KI.Region0
import proofs.«114833_j82626580840596_2_alg».proof.Proof.KI.Region1
import proofs.«114833_j82626580840596_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the core's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the core's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents the run ends with. -/
abbrev W5 : Dev nD → Valuation τ sig (Elt F) := fun c => StableHlo.after hostOps2 (W4 m ρ c)

/-! ### What a host stretch leaves alone: every buffer that is no operation's result -/

theorem hostOps0_keeps (X : Valuation τ sig (Elt F)) (r : Ref sig .tc) (h0 : r ≠ main_v0) (h1 : r ≠ main_v1) (h2 : r ≠ main_v2) :
    StableHlo.after hostOps0 X (Proc.devRef .tc r) = X (Proc.devRef .tc r) :=
  StableHlo.after_of_forall_not_mem (b := Proc.devRef .tc r) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))
theorem hostOps1_keeps (X : Valuation τ sig (Elt F)) (r : Ref sig .tc) (h0 : r ≠ main_v4) (h1 : r ≠ main_v5) :
    StableHlo.after hostOps1 X (Proc.devRef .tc r) = X (Proc.devRef .tc r) :=
  StableHlo.after_of_forall_not_mem (b := Proc.devRef .tc r) _ _ (List.forall_iff_forall_mem.mp (by
    simp only [hostOps1, List.Forall, StableHlo.reshape_writes, Finset.mem_singleton]
    exact ⟨StableHlo.devRef_ne_of_ne h0, StableHlo.devRef_ne_of_ne h1⟩))
theorem hostOps2_keeps (X : Valuation τ sig (Elt F)) (r : Ref sig .tc) (h0 : r ≠ main_v7) :
    StableHlo.after hostOps2 X (Proc.devRef .tc r) = X (Proc.devRef .tc r) :=
  StableHlo.after_of_forall_not_mem (b := Proc.devRef .tc r) _ _ (List.forall_iff_forall_mem.mp (by
    simp only [hostOps2, List.Forall, StableHlo.reshape_writes, Finset.mem_singleton]
    exact StableHlo.devRef_ne_of_ne h0))

/-- A buffer that is no host operation's result and no window's array of either region ends as launched. -/
theorem W5_of_untouched (c : Dev nD) (r : Ref sig .tc)
    (h0 : r ≠ main_v0) (h1 : r ≠ main_v1) (h2 : r ≠ main_v2) (h4 : r ≠ main_v4) (h5 : r ≠ main_v5) (h7 : r ≠ main_v7)
    (hw0 : ∀ w, Pipeline.arrRef spec0 w ≠ r) (hw1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := hostOps2_keeps _ r h7
    _ = W3 m ρ c (Proc.devRef .tc r) := W4_of_ne m ρ c r hw1
    _ = W2 m ρ c (Proc.devRef .tc r) := hostOps1_keeps _ r h4 h5
    _ = W1 m ρ c (Proc.devRef .tc r) := W2_of_ne m ρ c r hw0
    _ = W0 m ρ c (Proc.devRef .tc r) := hostOps0_keeps _ r h0 h1 h2
    _ = m ((c : Thread nD τ).loc r) := rfl

theorem W5_main_arg0 (c : Dev nD) : W5 m ρ c (Proc.devRef .tc main_arg0) = m ((c : Thread nD τ).loc main_arg0) :=
  W5_of_untouched m ρ c main_arg0 (by decide) (by decide) (by decide) (by decide) (by decide) (by decide) (by decide) (by decide)
theorem W5_main_arg1 (c : Dev nD) : W5 m ρ c (Proc.devRef .tc main_arg1) = m ((c : Thread nD τ).loc main_arg1) :=
  W5_of_untouched m ρ c main_arg1 (by decide) (by decide) (by decide) (by decide) (by decide) (by decide) (by decide) (by decide)
theorem W5_main_arg2 (c : Dev nD) : W5 m ρ c (Proc.devRef .tc main_arg2) = m ((c : Thread nD τ).loc main_arg2) :=
  W5_of_untouched m ρ c main_arg2 (by decide) (by decide) (by decide) (by decide) (by decide) (by decide) (by decide) (by decide)
theorem W5_main_arg3 (c : Dev nD) : W5 m ρ c (Proc.devRef .tc main_arg3) = m ((c : Thread nD τ).loc main_arg3) :=
  W5_of_untouched m ρ c main_arg3 (by decide) (by decide) (by decide) (by decide) (by decide) (by decide) (by decide) (by decide)
theorem W5_main_arg4 (c : Dev nD) : W5 m ρ c (Proc.devRef .tc main_arg4) = m ((c : Thread nD τ).loc main_arg4) :=
  W5_of_untouched m ρ c main_arg4 (by decide) (by decide) (by decide) (by decide) (by decide) (by decide) (by decide) (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    obligations, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the three stretches allocates a buffer. -/
theorem hops0_fresh : (hostOps0 : List (HloOp τ sig (Elt F))).Forall fun op => op.fresh = ∅ := by
  simp only [List.Forall]; repeat' constructor
theorem hops1_fresh : (hostOps1 : List (HloOp τ sig (Elt F))).Forall fun op => op.fresh = ∅ := by
  simp only [List.Forall]; repeat' constructor
theorem hops2_fresh : (hostOps2 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the obligations: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 over the thread state: entered from every unscoped buffer at W1, left at W2. Its arrays split out of
    the unscoped buffers and put back at the exit contents; the generator register into the invariant and out;
    nothing owed; no semaphore of the body's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W3, left at W4. Its invariant carries the
    accumulator between points: it is entered from the scoped rest and the generator register and gives them back
    after the last point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    iintro H
    ihave H' := (hout1 (V3 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five segments in order: a host segment per stretch from its boundary's contents, a region per call. -/
abbrev segs : List (Pipeline.Seg (pcfgs (F := F)) adm (pdats m ρ) () defs₀ 𝒱₀ L lv) :=
  [ .host (hseg hostOps0 hostOps0_sub hops0_fresh (W0 m ρ)),
    .region (reg0 m ρ),
    .host (hseg hostOps1 hostOps1_sub hops1_fresh (W2 m ρ)),
    .region (reg1 m ρ),
    .host (hseg hostOps2 hostOps2_sub hops2_fresh (W4 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the cores terminates,
    nothing faulting, and every final state has each unscoped buffer at the last boundary's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ (∃ r, prngReg c r) ∗ ∃ W, owes (c : Thread nD τ) (0 : CellTallies nD τ sig Unit) W) : sProp 𝕄)
        ⊢ iprop((StableHlo.held (c : Thread nD τ) (Pipeline.ucRefs τ sig) (W5 m ρ c) ∗ ∃ r, prngReg c r) ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: the program runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

/-- The run read at the result buffer too: it ends at the last boundary's contents, beside the frame. -/
theorem run_value : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v7 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.KernelIdeal.Hand

end
-- ==== Proof.Spec.lean ====
/-
  The function both programs compute, stated once over the argument arrays.

  The 4096 × 4096 weight is kept packed as a 64 × 262144 integer array: weight row `o`, entry `i`, sits in packed row
  `o / 64` at column `(o % 64) * 4096 + i` (the row-major reshape of 64 × 262144 to 4096 × 4096), and its scale and
  zero point sit at the same column of the two 1 × 262144 parameter rows. The dequantised weight is
  `(w - zero) * scale`; the result at (b, s, o) is the inner product of `x[b, s, ·]` with weight row `o`, plus `bias[o]`.
-/
import Idealize.ShloMosaic.PureOps.Ideal
import Idealize.ShloMosaic.Lib.ValueIdx

noncomputable section

namespace QLin

open Idealize.ShloMosaic Idealize.ShloMosaic.ValueIdx

abbrev SX : Shape := ⟨3, ![8, 2048, 4096]⟩
abbrev SQ : Shape := ⟨2, ![64, 262144]⟩
abbrev SP : Shape := ⟨2, ![1, 262144]⟩
abbrev SB : Shape := ⟨1, ![4096]⟩

/-- The packed row holding weight row `o`. -/
def grp (o : Fin 4096) : Fin 64 := ⟨o.val / 64, by omega⟩

/-- The packed column holding entry `i` of weight row `o`. -/
def col (o i : Fin 4096) : Fin 262144 := ⟨(o.val % 64) * 4096 + i.val, by omega⟩

/-- The dequantised weight at row `o`, entry `i`: `(w - zero) * scale` at the packed position. -/
def wr (wq : IVec SQ 32) (sc zr : FVec Ideal SP .f32) (o i : Fin 4096) : EReal :=
  ((((wq (ix2 (grp o) (col o i))).toInt : ℝ) : EReal) - zr (ix2 0 (col o i))) * sc (ix2 0 (col o i))

/-- The result at batch `p`, position `s`, output feature `o`. -/
def Gat (x : FVec Ideal SX .f32) (wq : IVec SQ 32) (sc zr : FVec Ideal SP .f32) (b : FVec Ideal SB .f32)
    (p : Fin 8) (s : Fin 2048) (o : Fin 4096) : EReal :=
  (∑ i : Fin 4096, x (ix3 p s i) * wr wq sc zr o i) + b (ix1 o)

/-- The whole result array. -/
def G (x : FVec Ideal SX .f32) (wq : IVec SQ 32) (sc zr : FVec Ideal SP .f32) (b : FVec Ideal SB .f32) :
    FVec Ideal SX .f32 :=
  fun j => Gat x wq sc zr b (j 0) (j 1) (j 2)

end QLin

end
-- ==== Proof.RefIsSpec.lean ====
import proofs.«114833_j82626580840596_2_alg».proof.Proof.Gen.ReferenceIdeal.Read
import proofs.«114833_j82626580840596_2_alg».proof.Proof.Spec

/-
  The reference program computes the specification `QLin.G`.

  The reference dequantises the packed 64 × 262144 integer array elementwise, `(w - zero) * scale` with the two
  1 × 262144 parameter rows repeated down the 64 rows, reads the result as a 4096 × 4096 array in row-major order,
  contracts the last axis of `x` with the second axis of that array, and adds the bias repeated over the batch and
  position axes. Read at one index `(p, s, o)` this is `∑ i, x[p, s, i] * W[o, i] + bias[o]`, where `W[o, i]` is the
  dequantised entry at row-major position `o * 4096 + i` of the packed array: row `(o * 4096 + i) / 262144 = o / 64`,
  column `(o * 4096 + i) % 262144 = (o % 64) * 4096 + i`, since `262144 = 64 * 4096`.
-/

noncomputable section

namespace Cert.ReferenceIdeal.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Row-major position `o * 4096 + i` of the 4096 × 4096 array sits in packed row `o / 64`, at column
    `(o % 64) * 4096 + i`. -/
theorem idx_reshape (o i : Fin 4096) : idx_main_v5 (ix2 o i) = ix2 (QLin.grp o) (QLin.col o i) := by
  have ho := o.isLt
  have hi := i.isLt
  funext a
  refine Fin.ext ?_
  match a with
  | ⟨0, _⟩ => show (o.val * 4096 + i.val) / 262144 = o.val / 64; omega
  | ⟨1, _⟩ => show (o.val * 4096 + i.val) % 262144 = (o.val % 64) * 4096 + i.val; omega

/-- The zero-point row repeated down the 64 packed rows is read at row 0, same column. -/
theorem idx_zero_row (g : Fin 64) (c : Fin 262144) : idx_main_v1 (ix2 g c) = ix2 (0 : Fin 1) c := by
  funext a
  match a with
  | ⟨0, _⟩ => rfl
  | ⟨1, _⟩ => rfl

/-- The scale row repeated down the 64 packed rows is read at row 0, same column. -/
theorem idx_scale_row (g : Fin 64) (c : Fin 262144) : idx_main_v3 (ix2 g c) = ix2 (0 : Fin 1) c := by
  funext a
  match a with
  | ⟨0, _⟩ => rfl
  | ⟨1, _⟩ => rfl

/-- The contraction reads `x` at `(p, s, k)` … -/
theorem idx_lhs (p : Fin 8) (s : Fin 2048) (o k : Fin 4096) : lidx_main_v6 (ix3 p s o) k = ix3 p s k := by
  funext a
  match a with
  | ⟨0, _⟩ => rfl
  | ⟨1, _⟩ => rfl
  | ⟨2, _⟩ => rfl

/-- … and the weight at `(o, k)`. -/
theorem idx_rhs (p : Fin 8) (s : Fin 2048) (o k : Fin 4096) : ridx_main_v6 (ix3 p s o) k = ix2 o k := by
  funext a
  match a with
  | ⟨0, _⟩ => rfl
  | ⟨1, _⟩ => rfl

/-- The bias repeated over batch and position is read at the output feature. -/
theorem idx_bias (p : Fin 8) (s : Fin 2048) (o : Fin 4096) : idx_main_v7 (idx_main_v8 (ix3 p s o)) = ix1 o := by
  funext a
  match a with
  | ⟨0, _⟩ => rfl

/-- The reshaped dequantised array at `(o, i)` is the specification's weight `(w - zero) * scale` at the packed
    position of `(o, i)`. -/
theorem weight_apply (wq : IVec S64x262144 32) (sc zr : FVec Ideal S1x262144 .f32) (o i : Fin 4096) :
    val_main_v5 (F := Ideal) wq sc zr (ix2 o i) = QLin.wr wq sc zr o i := by
  rw [val_main_v5_apply, val_main_v4_apply, val_main_v2_apply, val_main_v0_apply, val_main_v1_apply, val_main_v3_apply,
    idx_reshape, idx_zero_row, idx_scale_row]
  rfl

/-- The reference's result array is the specification, index by index. -/
theorem ref_is_spec (x : FVec Ideal S8x2048x4096 .f32) (wq : IVec S64x262144 32) (sc zr : FVec Ideal S1x262144 .f32)
    (b : FVec Ideal S4096 .f32) :
    val_main_v9 (F := Ideal) x wq sc zr b = QLin.G x wq sc zr b := by
  funext j
  obtain ⟨p, s, o, rfl⟩ : ∃ (p : Fin 8) (s : Fin 2048) (o : Fin 4096), j = ix3 p s o := ⟨j 0, j 1, j 2, eq_ix3 j⟩
  rw [val_main_v9_apply, val_main_v6_apply, val_main_v8_apply, val_main_v7_apply, idx_bias]
  simp only [idx_lhs, idx_rhs, weight_apply]
  rfl

/-- Every weakly fair execution of the reference ends with its result at the specification of the argument arrays, the
    arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v9)
          = QLin.G (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono (fun _ h c => ⟨by rw [(h c).1, val_main_v9_eq, ref_is_spec], (h c).2⟩)
    (Cert.ReferenceIdeal.Value.run (F := Ideal) m' ρ')

end Cert.ReferenceIdeal.RefSpec

end
-- ==== Proof.Frames.lean ====
/- The three frame claims and the idealisation claim. Each program runs from any memory with zero counters and ends
   with its argument arrays as launched: the two kernel programs by the run of their five segments, the reference by
   the run of its operations. The idealising pass rewrote nothing, so what it must preserve is trivial. -/
import proofs.«114833_j82626580840596_2_alg».proof.Defs
import proofs.«114833_j82626580840596_2_alg».proof.Proof.Gen.Kernel
import proofs.«114833_j82626580840596_2_alg».proof.Proof.Gen.KernelIdeal
import proofs.«114833_j82626580840596_2_alg».proof.Proof.Gen.ReferenceIdeal
import proofs.«114833_j82626580840596_2_alg».proof.Proof.Gen.Pre_finite_inputs
import proofs.«114833_j82626580840596_2_alg».proof.Proof.K.Run
import proofs.«114833_j82626580840596_2_alg».proof.Proof.KI.Run
import proofs.«114833_j82626580840596_2_alg».proof.Proof.RefIsSpec

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- The kernel program read over the extended reals runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference program runs and leaves its arguments as launched. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealising pass rewrote no operation. -/
theorem preserves : Cert.preserves_Kernel_KernelIdeal := trivial

end Cert.Proof

end
-- ==== Proof.KI.Region0Value.lean ====
/- The value the dequantisation body stores, read at one element, at the ideal interpretation: row r of the 256-row
   output block is slab r / 64 and group row r % 64 of the 4 x 64 x 4096 block of quantised words; the scale and the
   zero point depend on the group row and the column only. -/
import proofs.«114833_j82626580840596_2_alg».proof.Proof.KI.Region0
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- A [1, b, c] array broadcast to [a, b, c] reads, at (p, q, s), the operand's one slab at (q, s). -/
theorem broadcastTo_1bc_abc_apply {α : Type} {a b c : ℕ} (v : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ v h (ix3 p q s) = v (ix3 (0 : Fin 1) q s) := by
  refine broadcastTo_apply v h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- The whole-buffer loads read the buffers and the one covering store leaves its payload. -/
theorem out0_3_eq {F : FTy → Type} [FloatOps F] (x0 : Vec F S4x64x4096 .i32) (x1 x2 : Vec F S64x4096 .f32) :
    out0_3 (F := F) x0 x1 x2 = k0_pay1 x0 x1 x2 := by
  have hz2 : (![0, 0] : Fin S256x4096.rank → Nat) = fun _ => 0 := funext fun a => by fin_cases a <;> rfl
  have hz0 : (![0, 0, 0] : Fin S4x64x4096.rank → Nat) = fun _ => 0 := funext fun a => by fin_cases a <;> rfl
  have hz1 : (![0, 0] : Fin S64x4096.rank → Nat) = fun _ => 0 := funext fun a => by fin_cases a <;> rfl
  unfold out0_3
  rw [View.canon_unit_zero hz2, View.ld_unit_zero hz0, View.ld_unit_zero hz1, View.ld_unit_zero hz1]

/-- Element (r, i) of the stored block: the quantised word at slab r / 64, group row r % 64, column i, read as a
    signed integer, minus the zero point, times the scale, both at (r % 64, i). -/
theorem out0_3_apply (x0 : Vec Ideal S4x64x4096 .i32) (x1 x2 : Vec Ideal S64x4096 .f32) (r : Fin 256) (i : Fin 4096) :
    out0_3 (F := Ideal) x0 x1 x2 (ValueIdx.ix2 r i)
      = ((((x0 (ValueIdx.ix3 (⟨r.val / 64, by omega⟩ : Fin 4) (⟨r.val % 64, by omega⟩ : Fin 64) i)).toInt : ℝ) : EReal) - x2 (ValueIdx.ix2 (⟨r.val % 64, by omega⟩ : Fin 64) i)) * x1 (ValueIdx.ix2 (⟨r.val % 64, by omega⟩ : Fin 64) i) := by
  rw [out0_3_eq]
  unfold k0_pay1
  simp only [shapeCast_self]
  refine (truncf_apply _ bitsLt_bf16_f32 (ix2 r i)).trans ?_
  refine (shapeCast_apply _ shapeCasts_S4x64x4096_S256x4096 (ix2 r i)
    (ix3 (⟨r.val / 64, by omega⟩ : Fin 4) (⟨r.val % 64, by omega⟩ : Fin 64) i) ?_).trans ?_
  · rw [Shape.rowMajor_val_three, Shape.rowMajor_val_two]
    show (r.val / 64 * 64 + r.val % 64) * 4096 + i.val = r.val * 4096 + i.val
    have := Nat.div_add_mod' r.val 64
    omega
  refine (mulf_apply _ _ _).trans ?_
  refine congrArg₂ (· * ·) ((subf_apply _ _ _).trans (congrArg₂ (· - ·) rfl ?_)) ?_
  · exact (broadcastTo_1bc_abc_apply _ _ _ _ _).trans (shapeCast_ab_1ab_apply _ _ _ _ _)
  · exact (broadcastTo_1bc_abc_apply _ _ _ _ _).trans (shapeCast_ab_1ab_apply _ _ _ _ _)

end Cert.KernelIdeal.Hand

end
-- ==== Proof.KI.BlockReads.lean ====
import proofs.«114833_j82626580840596_2_alg».proof.Proof.KI.Region0
import proofs.«114833_j82626580840596_2_alg».proof.Proof.KI.Region1
import Idealize.ShloMosaic.Lib.Pipeline.Value
import Idealize.ShloMosaic.Lib.ValueIdx

/-
  Where each window's block sits in the window's array.

  A window's block at a grid point is the unit-stride rectangle of the array that starts, on each axis, at the block
  index times the block's extent: the element at coordinate `y` of the block is the array's element at
  `index * extent + y`. The block indices as functions of the point are decided once over the grid.

  First call, 16 points, point `t`: the 64 × 64 × 4096 integer array in blocks of 4 × 64 × 4096 at `(t, 0, 0)`; the two
  64 × 4096 parameter arrays whole; the 4096 × 4096 result in blocks of 256 × 4096 at `(t, 0)`, written back at every
  point, so the sixteen blocks tile the result.

  Second call, 16 × 2 × 8 points in row-major order, point `n` with coordinates `(n / 16, (n / 8) % 2, n % 8)`: the
  16384 × 4096 input in blocks of 1024 × 512 at `(n / 16, n % 8)`; the 4096 × 4096 weight in blocks of 2048 × 512 at
  `((n / 8) % 2, n % 8)`; the 1 × 4096 bias row in blocks of 1 × 2048 at `(0, (n / 8) % 2)`; the 16384 × 4096 result in
  blocks of 1024 × 2048 at `(n / 16, (n / 8) % 2)`, written back at the points with `n % 8 = 7`: row `M`, column `N` of the
  result is in the block of the point `(M / 1024) * 16 + (N / 2048) * 8 + 7`.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (V : (c : Dev nD) → (b : Ref sig .tc) → Buf (Elt F) ((c : Thread nD τ).loc b))

/-! ## The block indices, decided over the grids -/

theorem index0_0 : ∀ t : Fin cfg0.N, win0_0.index t (0 : Fin 3) = t.val % 16 ∧ win0_0.index t (1 : Fin 3) = 0
    ∧ win0_0.index t (2 : Fin 3) = 0 :=
  (by decide +kernel : ∀ t : Fin grid0.N, _)

theorem index0_1 : ∀ t : Fin cfg0.N, win0_1.index t (0 : Fin 2) = 0 ∧ win0_1.index t (1 : Fin 2) = 0 :=
  (by decide +kernel : ∀ t : Fin grid0.N, _)

theorem index0_2 : ∀ t : Fin cfg0.N, win0_2.index t (0 : Fin 2) = 0 ∧ win0_2.index t (1 : Fin 2) = 0 :=
  (by decide +kernel : ∀ t : Fin grid0.N, _)

theorem index0_3 : ∀ t : Fin cfg0.N, win0_3.index t (0 : Fin 2) = t.val % 16 ∧ win0_3.index t (1 : Fin 2) = 0 :=
  (by decide +kernel : ∀ t : Fin grid0.N, _)

theorem index1_0 : ∀ t : Fin cfg1.N, win1_0.index t (0 : Fin 2) = (t.val / 16) % 16 ∧ win1_0.index t (1 : Fin 2) = t.val % 8 :=
  (by decide +kernel : ∀ t : Fin grid1.N, _)

theorem index1_1 : ∀ t : Fin cfg1.N, win1_1.index t (0 : Fin 2) = (t.val / 8) % 2 ∧ win1_1.index t (1 : Fin 2) = t.val % 8 :=
  (by decide +kernel : ∀ t : Fin grid1.N, _)

theorem index1_2 : ∀ t : Fin cfg1.N, win1_2.index t (0 : Fin 2) = 0 ∧ win1_2.index t (1 : Fin 2) = (t.val / 8) % 2 :=
  (by decide +kernel : ∀ t : Fin grid1.N, _)

theorem index1_3 : ∀ t : Fin cfg1.N, win1_3.index t (0 : Fin 2) = (t.val / 16) % 16 ∧ win1_3.index t (1 : Fin 2) = (t.val / 8) % 2 :=
  (by decide +kernel : ∀ t : Fin grid1.N, _)

/-! ## First call: the input blocks as entries of their arrays -/

/-- The integer block at point `t` is rows `4 t, …, 4 t + 3` of the 64 × 64 × 4096 array. -/
theorem blk0_0 (c : Dev nD) (t : Fin cfg0.N) (a : Fin 4) (og : Fin 64) (i : Fin 4096) :
    iblk0 V c 0 t (ix3 a og i)
      = (V c main_v0 : S64x64x4096.Idx → Elt F .i32) (ix3 (⟨(t.val % 16) * 4 + a.val, by omega⟩ : Fin 64) og i) := by
  obtain ⟨e0, e1, e2⟩ := index0_0 t
  show V c main_v0 (((cfg0.win 0).blk t).view.emb (ix3 a og i)) = _
  refine congrArg (V c main_v0) (funext fun d => Fin.ext ?_)
  match d with
  | ⟨0, _⟩ => show win0_0.index t (0 : Fin 3) * 4 + 1 * a.val = (t.val % 16) * 4 + a.val; omega
  | ⟨1, _⟩ => show win0_0.index t (1 : Fin 3) * 64 + 1 * og.val = og.val; omega
  | ⟨2, _⟩ => show win0_0.index t (2 : Fin 3) * 4096 + 1 * i.val = i.val; omega

/-- The scale's block is the whole 64 × 4096 array at every point. -/
theorem blk0_1 (c : Dev nD) (t : Fin cfg0.N) (og : Fin 64) (i : Fin 4096) :
    iblk0 V c 1 t (ix2 og i) = (V c main_v1 : S64x4096.Idx → Elt F .f32) (ix2 og i) := by
  obtain ⟨e0, e1⟩ := index0_1 t
  show V c main_v1 (((cfg0.win 1).blk t).view.emb (ix2 og i)) = _
  refine congrArg (V c main_v1) (funext fun d => Fin.ext ?_)
  match d with
  | ⟨0, _⟩ => show win0_1.index t (0 : Fin 2) * 64 + 1 * og.val = og.val; omega
  | ⟨1, _⟩ => show win0_1.index t (1 : Fin 2) * 4096 + 1 * i.val = i.val; omega

/-- The zero point's block is the whole 64 × 4096 array at every point. -/
theorem blk0_2 (c : Dev nD) (t : Fin cfg0.N) (og : Fin 64) (i : Fin 4096) :
    iblk0 V c 2 t (ix2 og i) = (V c main_v2 : S64x4096.Idx → Elt F .f32) (ix2 og i) := by
  obtain ⟨e0, e1⟩ := index0_2 t
  show V c main_v2 (((cfg0.win 2).blk t).view.emb (ix2 og i)) = _
  refine congrArg (V c main_v2) (funext fun d => Fin.ext ?_)
  match d with
  | ⟨0, _⟩ => show win0_2.index t (0 : Fin 2) * 64 + 1 * og.val = og.val; omega
  | ⟨1, _⟩ => show win0_2.index t (1 : Fin 2) * 4096 + 1 * i.val = i.val; omega

/-! ## First call: the result's blocks -/

/-- Block `t` of a 4096 × 4096 array is its rows `256 t, …, 256 t + 255`. -/
theorem read_blk0_3 (G : S4096x4096.Idx → Elt F .bf16) (t : Fin cfg0.N) (r : Fin 256) (i : Fin 4096) :
    ((cfg0.win 3).blk t).view.read (Elt F) G (ix2 r i) = G (ix2 (⟨(t.val % 16) * 256 + r.val, by omega⟩ : Fin 4096) i) := by
  obtain ⟨e0, e1⟩ := index0_3 t
  show G (((cfg0.win 3).blk t).view.emb (ix2 r i)) = _
  refine congrArg G (funext fun d => Fin.ext ?_)
  match d with
  | ⟨0, _⟩ => show win0_3.index t (0 : Fin 2) * 256 + 1 * r.val = (t.val % 16) * 256 + r.val; omega
  | ⟨1, _⟩ => show win0_3.index t (1 : Fin 2) * 4096 + 1 * i.val = i.val; omega

/-- An index of the result is in point `t`'s block iff each coordinate is in the block's range on its axis. -/
theorem mem_blk0_3 (t : Fin cfg0.N) (j : S4096x4096.Idx) :
    j ∈ ((cfg0.win 3).blk t).view.set ↔ ∀ a : Fin 2, win0_3.index t a * S256x4096.size a ≤ (j a).val
      ∧ (j a).val < win0_3.index t a * S256x4096.size a + S256x4096.size a := by
  show j ∈ ((View.whole main_v3).slice (win0_3.rect t)).set ↔ _
  rw [View.set_slice_whole, Rect.mem_set_unit]
  exact Iff.rfl

/-- The sixteen blocks tile the result: row `M` is in the block of point `M / 256`. -/
theorem cover0_3arr (j : S4096x4096.Idx) :
    ∃ t : Fin cfg0.N, (cfg0.win 3).flush t = true ∧ j ∈ ((cfg0.win 3).blk t).view.set := by
  have h0 : (j 0).val < 4096 := (j 0).isLt
  have h1 : (j 1).val < 4096 := (j 1).isLt
  have hN : cfg0.N = 16 := N_0
  let t : Fin cfg0.N := ⟨(j 0).val / 256, by rw [hN]; omega⟩
  have ht : t.val = (j 0).val / 256 := rfl
  obtain ⟨e0, e1⟩ := index0_3 t
  refine ⟨t, flush0_3 t, ?_⟩
  rw [mem_blk0_3]
  intro a
  match a with
  | ⟨0, _⟩ => show win0_3.index t (0 : Fin 2) * 256 ≤ (j 0).val ∧ (j 0).val < win0_3.index t (0 : Fin 2) * 256 + 256; omega
  | ⟨1, _⟩ => show win0_3.index t (1 : Fin 2) * 4096 ≤ (j 1).val ∧ (j 1).val < win0_3.index t (1 : Fin 2) * 4096 + 4096; omega

/-! ## Second call: the input blocks as entries of their arrays -/

/-- The input's block at point `n`: rows from `1024 (n / 16)`, columns from `512 (n % 8)`. -/
theorem blk1_0 (c : Dev nD) (t : Fin cfg1.N) (p : Fin 1024) (k : Fin 512) :
    iblk1 V c 0 t (ix2 p k)
      = (V c main_v4 : S16384x4096.Idx → Elt F .f32)
          (ix2 (⟨((t.val / 16) % 16) * 1024 + p.val, by omega⟩ : Fin 16384) (⟨(t.val % 8) * 512 + k.val, by omega⟩ : Fin 4096)) := by
  obtain ⟨e0, e1⟩ := index1_0 t
  show V c main_v4 (((cfg1.win 0).blk t).view.emb (ix2 p k)) = _
  refine congrArg (V c main_v4) (funext fun d => Fin.ext ?_)
  match d with
  | ⟨0, _⟩ => show win1_0.index t (0 : Fin 2) * 1024 + 1 * p.val = ((t.val / 16) % 16) * 1024 + p.val; omega
  | ⟨1, _⟩ => show win1_0.index t (1 : Fin 2) * 512 + 1 * k.val = (t.val % 8) * 512 + k.val; omega

/-- The weight's block at point `n`: rows from `2048 ((n / 8) % 2)`, columns from `512 (n % 8)`. -/
theorem blk1_1 (c : Dev nD) (t : Fin cfg1.N) (q : Fin 2048) (k : Fin 512) :
    iblk1 V c 1 t (ix2 q k)
      = (V c main_v3 : S4096x4096.Idx → Elt F .bf16)
          (ix2 (⟨((t.val / 8) % 2) * 2048 + q.val, by omega⟩ : Fin 4096) (⟨(t.val % 8) * 512 + k.val, by omega⟩ : Fin 4096)) := by
  obtain ⟨e0, e1⟩ := index1_1 t
  show V c main_v3 (((cfg1.win 1).blk t).view.emb (ix2 q k)) = _
  refine congrArg (V c main_v3) (funext fun d => Fin.ext ?_)
  match d with
  | ⟨0, _⟩ => show win1_1.index t (0 : Fin 2) * 2048 + 1 * q.val = ((t.val / 8) % 2) * 2048 + q.val; omega
  | ⟨1, _⟩ => show win1_1.index t (1 : Fin 2) * 512 + 1 * k.val = (t.val % 8) * 512 + k.val; omega

/-- The bias row's block at point `n`: columns from `2048 ((n / 8) % 2)`. -/
theorem blk1_2 (c : Dev nD) (t : Fin cfg1.N) (q : Fin 2048) :
    iblk1 V c 2 t (ix2 (0 : Fin 1) q)
      = (V c main_v5 : S1x4096.Idx → Elt F .f32) (ix2 (0 : Fin 1) (⟨((t.val / 8) % 2) * 2048 + q.val, by omega⟩ : Fin 4096)) := by
  obtain ⟨e0, e1⟩ := index1_2 t
  show V c main_v5 (((cfg1.win 2).blk t).view.emb (ix2 (0 : Fin 1) q)) = _
  refine congrArg (V c main_v5) (funext fun d => Fin.ext ?_)
  match d with
  | ⟨0, _⟩ => show win1_2.index t (0 : Fin 2) * 1 + 1 * 0 = 0; omega
  | ⟨1, _⟩ => show win1_2.index t (1 : Fin 2) * 2048 + 1 * q.val = ((t.val / 8) % 2) * 2048 + q.val; omega

/-! ## Second call: the result's blocks -/

/-- Block `n` of a 16384 × 4096 array: rows from `1024 (n / 16)`, columns from `2048 ((n / 8) % 2)`. -/
theorem read_blk1_3 (G : S16384x4096.Idx → Elt F .f32) (t : Fin cfg1.N) (p : Fin 1024) (q : Fin 2048) :
    ((cfg1.win 3).blk t).view.read (Elt F) G (ix2 p q)
      = G (ix2 (⟨((t.val / 16) % 16) * 1024 + p.val, by omega⟩ : Fin 16384) (⟨((t.val / 8) % 2) * 2048 + q.val, by omega⟩ : Fin 4096)) := by
  obtain ⟨e0, e1⟩ := index1_3 t
  show G (((cfg1.win 3).blk t).view.emb (ix2 p q)) = _
  refine congrArg G (funext fun d => Fin.ext ?_)
  match d with
  | ⟨0, _⟩ => show win1_3.index t (0 : Fin 2) * 1024 + 1 * p.val = ((t.val / 16) % 16) * 1024 + p.val; omega
  | ⟨1, _⟩ => show win1_3.index t (1 : Fin 2) * 2048 + 1 * q.val = ((t.val / 8) % 2) * 2048 + q.val; omega

/-- An index of the result is in point `n`'s block iff each coordinate is in the block's range on its axis. -/
theorem mem_blk1_3 (t : Fin cfg1.N) (j : S16384x4096.Idx) :
    j ∈ ((cfg1.win 3).blk t).view.set ↔ ∀ a : Fin 2, win1_3.index t a * S1024x2048.size a ≤ (j a).val
      ∧ (j a).val < win1_3.index t a * S1024x2048.size a + S1024x2048.size a := by
  show j ∈ ((View.whole main_v6).slice (win1_3.rect t)).set ↔ _
  rw [View.set_slice_whole, Rect.mem_set_unit]
  exact Iff.rfl

/-- The blocks written back tile the result: row `M`, column `N` is in the block of the point
    `(M / 1024) * 16 + (N / 2048) * 8 + 7`, a point that writes back. -/
theorem cover1_3arr (j : S16384x4096.Idx) :
    ∃ t : Fin cfg1.N, (cfg1.win 3).flush t = true ∧ j ∈ ((cfg1.win 3).blk t).view.set := by
  have h0 : (j 0).val < 16384 := (j 0).isLt
  have h1 : (j 1).val < 4096 := (j 1).isLt
  have hN : cfg1.N = 256 := N_1
  let t : Fin cfg1.N := ⟨(j 0).val / 1024 * 16 + (j 1).val / 2048 * 8 + 7, by rw [hN]; omega⟩
  have ht : t.val = (j 0).val / 1024 * 16 + (j 1).val / 2048 * 8 + 7 := rfl
  obtain ⟨e0, e1⟩ := index1_3 t
  refine ⟨t, (flush1_3 t).mpr (by omega), ?_⟩
  rw [mem_blk1_3]
  intro a
  match a with
  | ⟨0, _⟩ => show win1_3.index t (0 : Fin 2) * 1024 ≤ (j 0).val ∧ (j 0).val < win1_3.index t (0 : Fin 2) * 1024 + 1024; omega
  | ⟨1, _⟩ => show win1_3.index t (1 : Fin 2) * 2048 ≤ (j 1).val ∧ (j 1).val < win1_3.index t (1 : Fin 2) * 2048 + 2048; omega

end Cert.KernelIdeal.Hand

end
-- ==== Proof.KI.Final0.lean ====
import proofs.«114833_j82626580840596_2_alg».proof.Proof.KI.Region0Value
import proofs.«114833_j82626580840596_2_alg».proof.Proof.KI.BlockReads
import Idealize.ShloMosaic.Lib.Pipeline.Value

/-
  The first call's result as one function of the arrays it is entered with.

  The call dequantises: entry `(o, i)` of the 4096 × 4096 result is the integer at `(o / 64, o % 64, i)` of the
  64 × 64 × 4096 array, read signed, minus the zero point at `(o % 64, i)`, times the scale at `(o % 64, i)`. Point `t` of
  the grid writes rows `256 t, …, 256 t + 255`: row `256 t + r` has `(256 t + r) / 64 = 4 t + r / 64` and
  `(256 t + r) % 64 = r % 64`, which is where the body's stored block reads its input blocks. The sixteen blocks tile
  the result, so after the call the whole array is that function.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The dequantised entry at row `o`, column `i`: `(w - zero) * scale` at group `o / 64`, group row `o % 64`. -/
def G0at (c : Dev nD) (o i : Fin 4096) : EReal :=
  (((((V c main_v0 : S64x64x4096.Idx → BitVec 32)
        (ix3 (⟨o.val / 64, by omega⟩ : Fin 64) (⟨o.val % 64, by omega⟩ : Fin 64) i)).toInt : ℝ) : EReal)
      - (V c main_v2 : S64x4096.Idx → EReal) (ix2 (⟨o.val % 64, by omega⟩ : Fin 64) i))
    * (V c main_v1 : S64x4096.Idx → EReal) (ix2 (⟨o.val % 64, by omega⟩ : Fin 64) i)

/-- The whole dequantised array. -/
def G0 (c : Dev nD) : S4096x4096.Idx → EReal := fun j => G0at V c (j 0) (j 1)

/-- Row `256 t + r` of the dequantised array, written with the group `4 t + r / 64` and the group row `r % 64`. -/
theorem G0at_row (c : Dev nD) (t : Fin cfg0.N) (r : Fin 256) (i : Fin 4096) :
    G0at V c (⟨(t.val % 16) * 256 + r.val, by omega⟩ : Fin 4096) i
      = (((((V c main_v0 : S64x64x4096.Idx → BitVec 32)
              (ix3 (⟨(t.val % 16) * 4 + r.val / 64, by omega⟩ : Fin 64) (⟨r.val % 64, by omega⟩ : Fin 64) i)).toInt : ℝ) : EReal)
            - (V c main_v2 : S64x4096.Idx → EReal) (ix2 (⟨r.val % 64, by omega⟩ : Fin 64) i))
          * (V c main_v1 : S64x4096.Idx → EReal) (ix2 (⟨r.val % 64, by omega⟩ : Fin 64) i) := by
  have f1 : (⟨((t.val % 16) * 256 + r.val) / 64, by omega⟩ : Fin 64) = ⟨(t.val % 16) * 4 + r.val / 64, by omega⟩ :=
    Fin.ext (by show ((t.val % 16) * 256 + r.val) / 64 = (t.val % 16) * 4 + r.val / 64; omega)
  have f2 : (⟨((t.val % 16) * 256 + r.val) % 64, by omega⟩ : Fin 64) = ⟨r.val % 64, by omega⟩ :=
    Fin.ext (by show ((t.val % 16) * 256 + r.val) % 64 = r.val % 64; omega)
  show (((((V c main_v0 : S64x64x4096.Idx → BitVec 32)
              (ix3 (⟨((t.val % 16) * 256 + r.val) / 64, by omega⟩ : Fin 64) (⟨((t.val % 16) * 256 + r.val) % 64, by omega⟩ : Fin 64) i)).toInt : ℝ) : EReal)
            - (V c main_v2 : S64x4096.Idx → EReal) (ix2 (⟨((t.val % 16) * 256 + r.val) % 64, by omega⟩ : Fin 64) i))
          * (V c main_v1 : S64x4096.Idx → EReal) (ix2 (⟨((t.val % 16) * 256 + r.val) % 64, by omega⟩ : Fin 64) i) = _
  rw [f1, f2]

/-- What point `t` writes back is block `t` of the dequantised array. -/
theorem flushed0_eq (c : Dev nD) (t : Fin cfg0.N) :
    (dat0 V c).flushed 3 t = ((cfg0.win 3).blk t).view.read (Elt Ideal) (G0 V c) := by
  funext y
  obtain ⟨r, i, rfl⟩ : ∃ (r : Fin 256) (i : Fin 4096), y = ix2 r i := ⟨y 0, y 1, eq_ix2 y⟩
  refine Eq.trans ?_ (read_blk0_3 (F := Ideal) (G0 V c) t r i).symm
  show (dat0 V c).after 3 t (ix2 r i) = G0at V c (⟨(t.val % 16) * 256 + r.val, by omega⟩ : Fin 4096) i
  rw [after0_3, G0at_row]
  refine (out0_3_apply (iblk0 V c 0 t) (iblk0 V c 1 t) (iblk0 V c 2 t) r i).trans ?_
  refine congrArg₂ (· * ·) (congrArg₂ (· - ·) (congrArg (fun w : BitVec 32 => ((w.toInt : ℝ) : EReal)) ?_) ?_) ?_
  · exact blk0_0 V c t _ _ i
  · exact blk0_2 V c t _ i
  · exact blk0_1 V c t _ i

/-- After the first call the result array is the dequantised array. -/
theorem final0 (c : Dev nD) : (dat0 V c).arrAt 3 cfg0.N = G0 V c :=
  (dat0 V c).arrAt_eq_of_cover 3 (G0 V c) (fun t _ => flushed0_eq V c t) cover0_3arr

end Cert.KernelIdeal.Hand

end
-- ==== Proof.KI.Payloads.lean ====
import proofs.«114833_j82626580840596_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-
  The three values the matrix-product kernel stores, read at one index `(p, q)` of a 1024 × 2048 block, on the extended
  reals.

  The first is the zero block. The second adds to the running block `v8` the product of a 1024 × 512 block `v3` with the
  TRANSPOSE of a 2048 × 512 block `v6`: both operands are contracted along their second axis, so the entry at `(p, q)`
  is `v8[p, q] + ∑ k, v3[p, k] * v6[q, k]`; the narrowing of `v3` to a 16-bit format is the identity on extended reals,
  and the product accumulates into a zero block, which contributes `0`. The third adds to the block `v17` the 1 × 2048
  row `v18` repeated down the 1024 rows: `v17[p, q] + v18[0, q]`.
-/

noncomputable section

namespace Cert.KernelIdeal.Hand

open Cert.KernelIdeal Cert.KernelIdeal.Gen Idealize.ShloMosaic Idealize.ShloMosaic.ValueIdx

/-- The left operand's first coordinate is the output's row … -/
theorem mm_lhs_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl

/-- … its second the contraction index. -/
theorem mm_lhs_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q

/-- The right operand's first coordinate is the output's COLUMN (the right operand is used transposed) … -/
theorem mm_rhs_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl

/-- … its second the contraction index. -/
theorem mm_rhs_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The product of a 1024 × 512 block with the transpose of a 2048 × 512 block, into the zero block, at `(p, q)`. -/
theorem mm_apply (l : FVec Ideal S1024x512 .bf16) (r : FVec Ideal S2048x512 .bf16) (p : Fin 1024) (q : Fin 2048) :
    FloatOps.matmul dot_S1024x512_S2048x512_S1024x2048_1_1_0_0_n_n none l r (constant S1024x2048 .f32 0x00000000#32) (ix2 p q)
      = ∑ k : Fin 512, l (ix2 p k) * r (ix2 q k) := by
  rw [Ideal.matmul_constant_zero_apply,
    ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q)
      ((contrEquiv1 dot_S1024x512_S2048x512_S1024x2048_1_1_0_0_n_n 512 rfl rfl).symm k) = ix2 p k :=
    funext fun a => Fin.ext (by
      match a with
      | ⟨0, _⟩ => exact mm_lhs_0 _ _
      | ⟨1, _⟩ => exact (mm_lhs_1 _ _).trans hk)
  have er : dot_S1024x512_S2048x512_S1024x2048_1_1_0_0_n_n.rhsIdx (ix2 p q)
      ((contrEquiv1 dot_S1024x512_S2048x512_S1024x2048_1_1_0_0_n_n 512 rfl rfl).symm k) = ix2 q k :=
    funext fun a => Fin.ext (by
      match a with
      | ⟨0, _⟩ => exact mm_rhs_0 _ _
      | ⟨1, _⟩ => exact (mm_rhs_1 _ _).trans hk)
  rw [el, er]

/-- The 1 × 2048 row repeated down 1024 rows is read at row 0, same column. -/
theorem row_apply (v : FVec Ideal S1x2048 .f32) (p : Fin 1024) (q : Fin 2048) :
    broadcastTo S1024x2048 v broadcasts_S1x2048_S1024x2048 (ix2 p q) = v (ix2 (0 : Fin 1) q) :=
  broadcastTo_apply v broadcasts_S1x2048_S1024x2048 (ix2 p q) (ix2 (0 : Fin 1) q) (fun a => match a with
    | ⟨0, _⟩ => by show 0 = if (1 : Nat) = 1 then 0 else _; rw [if_pos rfl]
    | ⟨1, _⟩ => by show q.val = if (2048 : Nat) = 1 then 0 else q.val; rw [if_neg (by decide)])

/-- The first stored value is the zero block. -/
theorem pay1_apply (p : Fin 1024) (q : Fin 2048) : k1_pay1 (F := Ideal) (ix2 p q) = 0 := by
  unfold k1_pay1
  rw [shapeCast_self]
  exact Ideal.ofBits_zero_f32

/-- The second stored value at `(p, q)`: the running block plus the inner product of row `p` of `v3` with row `q` of `v6`. -/
theorem pay2_apply (v3 : Vec Ideal S1024x512 .f32) (v6 : Vec Ideal S2048x512 .bf16) (v8 : Vec Ideal S1024x2048 .f32)
    (p : Fin 1024) (q : Fin 2048) :
    k1_pay2 v3 v6 v8 (ix2 p q) = v8 (ix2 p q) + ∑ k : Fin 512, v3 (ix2 p k) * v6 (ix2 q k) := by
  unfold k1_pay2
  rw [shapeCast_self, shapeCast_self, shapeCast_self]
  refine (addf_apply _ _ _).trans (congrArg (v8 (ix2 p q) + ·) ?_)
  exact mm_apply _ _ p q

/-- The third stored value at `(p, q)`: the block plus the row's entry in column `q`. -/
theorem pay3_apply (v17 : Vec Ideal S1024x2048 .f32) (v18 : Vec Ideal S1x2048 .f32) (p : Fin 1024) (q : Fin 2048) :
    k1_pay3 v17 v18 (ix2 p q) = v17 (ix2 p q) + v18 (ix2 (0 : Fin 1) q) := by
  unfold k1_pay3
  rw [shapeCast_self]
  exact (addf_apply _ _ _).trans (congrArg (v17 (ix2 p q) + ·) (row_apply _ p q))

end Cert.KernelIdeal.Hand

end
-- ==== Proof.KI.Region1Value.lean ====
/-
  The matrix-product region, read as values: what each of the three cases leaves is the body's arithmetic of its blocks,
  so the accumulator after a point is the fold, over the points of its run of eight so far, of "add this point's block
  product", started from the cleared value; a last point writes that fold plus the bias row back.
-/
import proofs.«114833_j82626580840596_2_alg».proof.Proof.KI.Region1
import proofs.«114833_j82626580840596_2_alg».proof.Proof.KI.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- A first point leaves in the accumulator the cleared value plus the product of the two blocks. -/
theorem sout1_A_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i) (x0 : Vec F S1024x512 .f32) (x1 : Vec F S2048x512 .bf16) (x2 : Vec F S1x2048 .f32) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  rw [View.canon_cons_unit_zero hz2]
  sl_unfold_words
  rw [View.readCov_unit_zero _ hz2]
  simp only [View.readAt_eq_ld, harg3.read_unread, harg4.read_unread, View.ld_unit_zero (S := S1024x512) hz2, View.ld_unit_zero (S := S2048x512) hz2]

/-- A middle point leaves what it found plus the product of the two blocks. -/
theorem sout1_B_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i) (x0 : Vec F S1024x512 .f32) (x1 : Vec F S2048x512 .bf16) (x2 : Vec F S1x2048 .f32) (xs0 : Vec F S1024x2048 .f32) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  first | rw [View.canon_cons_unit_zero hz2] | rw [View.canon_unit_zero hz2]
  sl_unfold_words
  simp only [View.readAt_eq_ld, harg3.read_unread, harg4.read_unread, harg7.read_unread, View.ld_unit_zero (S := S1024x512) hz2, View.ld_unit_zero (S := S2048x512) hz2, View.ld_unit_zero (S := S1024x2048) hz2]

/-- So does a last point, in the accumulator; -/
theorem sout1_C_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  first | rw [View.canon_cons_unit_zero hz2] | rw [View.canon_unit_zero hz2]
  simp only [View.readAt_eq_ld, harg3.read_unread, harg4.read_unread, harg7.read_unread, View.ld_unit_zero (S := S1024x512) hz2, View.ld_unit_zero (S := S2048x512) hz2, View.ld_unit_zero (S := S1024x2048) hz2]
  first | rfl | skip

/-- and in the output block that sum plus the bias row. -/
theorem out1_C_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i) (x0 : Vec F S1024x512 .f32) (x1 : Vec F S2048x512 .bf16) (x2 : Vec F S1x2048 .f32) (xs0 : Vec F S1024x2048 .f32) :
    out1_C c i arg3 harg3 arg4 harg4 arg5 harg5 arg6 harg6 arg7 harg7 hc0 hc1 x0 x1 x2 xs0 = k1_pay3 (k1_pay2 x0 x1 xs0) x2 := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  rw [View.canon_unit_zero hz2]
  sl_unfold_words
  rw [View.readCov_unit_zero _ hz2]
  simp only [View.readAt_eq_ld, harg3.read_unread, harg4.read_unread, harg5.read_unread, harg7.read_unread, View.ld_unit_zero (S := S1024x512) hz2, View.ld_unit_zero (S := S2048x512) hz2, View.ld_unit_zero (S := S1024x2048) hz2, View.ld_unit_zero (S := S1x2048) hz2]

/-! ## The accumulator along the grid order -/

section Acc

variable (V : (c : Dev nD) → (b : Ref sig .tc) → Buf (Elt F) ((c : Thread nD τ).loc b))

set_option maxHeartbeats 2000000 in
/-- At the first point of a run of eight the accumulator restarts from the cleared value. -/
theorem acc_first (c : Dev nD) (t : Fin cfg1.N) (h0 : t.val % 8 = 0) :
    (outsAt1 V c t.val t.isLt).2 = k1_pay2 (iblk1 V c 0 t) (iblk1 V c 1 t) (k1_pay1 (F := F)) := by
  rw [outsAt1_A V c t h0 (by omega)]
  dsimp only
  exact sout1_A_eq c (grid1.coords t) (ms1_0 t) (hs1_0 t) (ms1_1 t) (hs1_1 t) (ms1_2 t) (hs1_2 t) (ms1_3 t) (hs1_3 t) scM1 (Memref.isWhole_whole _) ((hcond1_0 t).mpr h0) (fun hh => (by omega : ¬t.val % 8 = 7) ((hcond1_1 t).mp hh)) (iblk1 V c 0 t) (iblk1 V c 1 t) (iblk1 V c 2 t)

set_option maxHeartbeats 2000000 in
/-- At every other point it adds that point's block product to what the point before left. -/
theorem acc_next (c : Dev nD) (t : Fin cfg1.N) (h0 : ¬t.val % 8 = 0) :
    (outsAt1 V c t.val t.isLt).2 = k1_pay2 (iblk1 V c 0 t) (iblk1 V c 1 t) (outsAt1 V c (t.val - 1) (Nat.lt_of_le_of_lt (Nat.sub_le _ _) t.isLt)).2 := by
  by_cases h1 : t.val % 8 = 7
  · rw [outsAt1_C V c t h0 h1]
    dsimp only
    exact sout1_C_eq c (grid1.coords t) (ms1_0 t) (hs1_0 t) (ms1_1 t) (hs1_1 t) (ms1_2 t) (hs1_2 t) (ms1_3 t) (hs1_3 t) scM1 (Memref.isWhole_whole _) (fun hh => h0 ((hcond1_0 t).mp hh)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_eq c (grid1.coords t) (ms1_0 t) (hs1_0 t) (ms1_1 t) (hs1_1 t) (ms1_2 t) (hs1_2 t) (ms1_3 t) (hs1_3 t) scM1 (Memref.isWhole_whole _) (fun hh => h0 ((hcond1_0 t).mp hh)) (fun hh => h1 ((hcond1_1 t).mp hh)) (iblk1 V c 0 t) (iblk1 V c 1 t) (iblk1 V c 2 t) (outsAt1 V c (t.val - 1) (Nat.lt_of_le_of_lt (Nat.sub_le _ _) t.isLt)).2

set_option maxHeartbeats 2000000 in
/-- At the last point of a run the output block is what that point leaves in the accumulator, plus the bias row. -/
theorem out_last (c : Dev nD) (t : Fin cfg1.N) (h1 : t.val % 8 = 7) :
    (outsAt1 V c t.val t.isLt).1 = k1_pay3 (k1_pay2 (iblk1 V c 0 t) (iblk1 V c 1 t) (outsAt1 V c (t.val - 1) (Nat.lt_of_le_of_lt (Nat.sub_le _ _) t.isLt)).2) (iblk1 V c 2 t) := by
  have h0 : ¬t.val % 8 = 0 := by omega
  rw [outsAt1_C V c t h0 h1]
  dsimp only
  exact out1_C_eq c (grid1.coords t) (ms1_0 t) (hs1_0 t) (ms1_1 t) (hs1_1 t) (ms1_2 t) (hs1_2 t) (ms1_3 t) (hs1_3 t) scM1 (Memref.isWhole_whole _) (fun hh => h0 ((hcond1_0 t).mp hh)) ((hcond1_1 t).mpr h1) (iblk1 V c 0 t) (iblk1 V c 1 t) (iblk1 V c 2 t) (outsAt1 V c (t.val - 1) (Nat.lt_of_le_of_lt (Nat.sub_le _ _) t.isLt)).2

end Acc

/-! ## At the ideal instance, index by index -/

section AccIdeal

open ValueIdx

variable (V : (c : Dev nD) → (b : Ref sig .tc) → Buf (Elt Ideal) ((c : Thread nD τ).loc b))

/-- The three input blocks of point `t`, and what it writes back, as plain arrays of extended reals. -/
abbrev blkA (c : Dev nD) (t : Fin cfg1.N) : S1024x512.Idx → EReal := iblk1 V c 0 t
abbrev blkB (c : Dev nD) (t : Fin cfg1.N) : S2048x512.Idx → EReal := iblk1 V c 1 t
abbrev blkC (c : Dev nD) (t : Fin cfg1.N) : S1x2048.Idx → EReal := iblk1 V c 2 t
abbrev wrote (c : Dev nD) (t : Fin cfg1.N) : S1024x2048.Idx → EReal := (dat1 V c).flushed 3 t

/-- The block product point `t` adds at row `p`, column `q` of the accumulator: the inner product of row `p` of the
    left block with row `q` of the right block (the right operand is used transposed). -/
def addend (c : Dev nD) (t : Fin cfg1.N) (p : Fin 1024) (q : Fin 2048) : EReal :=
  ∑ k : Fin 512, blkA V c t (ix2 p k) * blkB V c t (ix2 q k)

/-- The same by position in the grid order (zero past the grid: never used). -/
def addendN (c : Dev nD) (p : Fin 1024) (q : Fin 2048) (n : ℕ) : EReal :=
  if h : n < cfg1.N then addend V c ⟨n, h⟩ p q else 0

theorem addendN_eq (c : Dev nD) (p : Fin 1024) (q : Fin 2048) (t : Fin cfg1.N) : addendN V c p q t.val = addend V c t p q :=
  dif_pos t.isLt

set_option maxHeartbeats 2000000 in
/-- After the point at offset `j` of its run of eight the accumulator holds the cleared value plus the block products of
    the run's points so far. -/
theorem acc_apply (c : Dev nD) (p : Fin 1024) (q : Fin 2048) : ∀ (j : ℕ) (t : Fin cfg1.N), t.val % 8 = j →
    ((outsAt1 V c t.val t.isLt).2 : S1024x2048.Idx → EReal) (ix2 p q) = 0 + ∑ s ∈ Finset.range (j + 1), addendN V c p q (t.val - j + s)
  | 0, t, hj => by
    rw [acc_first V c t hj]
    refine (pay2_apply _ _ _ p q).trans ?_
    rw [pay1_apply, Finset.sum_range_one, Nat.sub_zero, Nat.add_zero, addendN_eq V c p q t]
    rfl
  | j + 1, t, hj => by
    have hlt : t.val - 1 < cfg1.N := Nat.lt_of_le_of_lt (Nat.sub_le _ _) t.isLt
    have ih := acc_apply c p q j ⟨t.val - 1, hlt⟩ (by show (t.val - 1) % 8 = j; omega)
    rw [acc_next V c t (by omega)]
    refine (pay2_apply _ _ _ p q).trans ?_
    have e1 : t.val - 1 - j = t.val - (j + 1) := by omega
    have e2 : t.val - (j + 1) + (j + 1) = t.val := by have := Nat.mod_le t.val 8; omega
    rw [show ((outsAt1 V c (t.val - 1) hlt).2 : S1024x2048.Idx → EReal) (ix2 p q) = 0 + ∑ s ∈ Finset.range (j + 1), addendN V c p q (t.val - 1 - j + s) from ih,
      e1, Finset.sum_range_succ _ (j + 1), e2, addendN_eq V c p q t, add_assoc]
    rfl

set_option maxHeartbeats 2000000 in
/-- What a last point writes back, at row `p`, column `q` of its block: the cleared value plus the eight block products of its
    run, plus the bias entry of its column. -/
theorem flushed1_apply (c : Dev nD) (t : Fin cfg1.N) (h1 : t.val % 8 = 7) (p : Fin 1024) (q : Fin 2048) :
    wrote V c t (ix2 p q)
      = (0 + ∑ s ∈ Finset.range 8, addendN V c p q (t.val - 7 + s)) + blkC V c t (ix2 (0 : Fin 1) q) := by
  show ((dat1 V c).after 3 t : S1024x2048.Idx → EReal) (ix2 p q) = _
  rw [after1_3 V c t, out_last V c t h1, ← acc_next V c t (by omega)]
  refine (pay3_apply _ _ p q).trans ?_
  rw [acc_apply V c p q 7 t h1]

end AccIdeal

end Cert.KernelIdeal.Hand

end
-- ==== Proof.KI.Final1.lean ====
/-
  The second region's output array as ONE function of the arrays the region is entered with: entry (M, N) is the cleared
  value plus, block by block over the eight blocks of the contracted dimension, the inner products of row M of the left
  operand with row N of the right operand, plus the bias entry of column N.
-/
import proofs.«114833_j82626580840596_2_alg».proof.Proof.KI.Region1Value
import proofs.«114833_j82626580840596_2_alg».proof.Proof.KI.BlockReads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Final1

open ValueIdx

variable (V : (c : Dev nD) → (b : Ref sig .tc) → Buf (Elt Ideal) ((c : Thread nD τ).loc b))

/-- The region's three input arrays as plain arrays of extended reals. -/
abbrev arrX (c : Dev nD) : S16384x4096.Idx → EReal := V c main_v4
abbrev arrW (c : Dev nD) : S4096x4096.Idx → EReal := V c main_v3
abbrev arrB (c : Dev nD) : S1x4096.Idx → EReal := V c main_v5

/-- Entry (M, N) of what the region leaves in its output array. -/
def G1at (c : Dev nD) (M : Fin 16384) (N : Fin 4096) : EReal :=
  (0 + ∑ s ∈ Finset.range 8, ∑ k : Fin 512,
      arrX V c (ix2 M (⟨(s % 8) * 512 + k.val, by omega⟩ : Fin 4096)) * arrW V c (ix2 N (⟨(s % 8) * 512 + k.val, by omega⟩ : Fin 4096)))
    + arrB V c (ix2 (0 : Fin 1) N)

def G1 (c : Dev nD) : S16384x4096.Idx → EReal := fun j => G1at V c (j 0) (j 1)

/-- A point's block product, read off the arrays. -/
theorem addend_arr (c : Dev nD) (t : Fin cfg1.N) (p : Fin 1024) (q : Fin 2048) :
    addend V c t p q = ∑ k : Fin 512,
      arrX V c (ix2 (⟨((t.val / 16) % 16) * 1024 + p.val, by omega⟩ : Fin 16384) (⟨(t.val % 8) * 512 + k.val, by omega⟩ : Fin 4096))
      * arrW V c (ix2 (⟨((t.val / 8) % 2) * 2048 + q.val, by omega⟩ : Fin 4096) (⟨(t.val % 8) * 512 + k.val, by omega⟩ : Fin 4096)) := by
  unfold addend
  refine Finset.sum_congr rfl fun k _ => ?_
  exact congrArg₂ (· * ·) (blk1_0 V c t p k) (blk1_1 V c t q k)

/-- What a last point writes back is its block of `G1`. -/
theorem wrote_eq (c : Dev nD) (t : Fin cfg1.N) (h1 : t.val % 8 = 7) (p : Fin 1024) (q : Fin 2048) :
    wrote V c t (ix2 p q)
      = G1at V c (⟨((t.val / 16) % 16) * 1024 + p.val, by omega⟩ : Fin 16384) (⟨((t.val / 8) % 2) * 2048 + q.val, by omega⟩ : Fin 4096) := by
  have hN : cfg1.N = 256 := N_1
  have hN' : t.val < 256 := lt_of_lt_of_eq t.isLt hN
  rw [flushed1_apply V c t h1 p q]
  unfold G1at
  refine congrArg₂ (· + ·) (congrArg (fun z => (0 : EReal) + z) (Finset.sum_congr rfl fun s hs => ?_)) (blk1_2 V c t q)
  have hs8 : s < 8 := Finset.mem_range.mp hs
  have hlt : t.val - 7 + s < cfg1.N := by omega
  rw [show addendN V c p q (t.val - 7 + s) = addend V c ⟨t.val - 7 + s, hlt⟩ p q from dif_pos hlt, addend_arr V c ⟨t.val - 7 + s, hlt⟩ p q]
  refine Finset.sum_congr rfl fun k _ => ?_
  have e0 : ((t.val - 7 + s) / 16) % 16 = (t.val / 16) % 16 := by omega
  have e1 : ((t.val - 7 + s) / 8) % 2 = (t.val / 8) % 2 := by omega
  have e2 : (t.val - 7 + s) % 8 = s % 8 := by omega
  dsimp only
  simp only [e0, e1, e2]

/-- So, as functions of the block index, what a last point writes back is its block of `G1`. -/
theorem flushed1_eq (c : Dev nD) (t : Fin cfg1.N) (hf : (cfg1.win 3).flush t = true) :
    (dat1 V c).flushed 3 t = ((cfg1.win 3).blk t).view.read (Elt Ideal) (G1 V c) := by
  have h1 : t.val % 8 = 7 := (flush1_3 t).mp hf
  funext y
  obtain ⟨p, q, rfl⟩ : ∃ (p : Fin 1024) (q : Fin 2048), y = ix2 p q := ⟨y 0, y 1, eq_ix2 y⟩
  exact (wrote_eq V c t h1 p q).trans (read_blk1_3 (F := Ideal) (G1 V c) t p q).symm

/-- The last points' blocks tile the output array, so the array ends holding `G1`. -/
theorem final1 (c : Dev nD) : (dat1 V c).arrAt 3 cfg1.N = G1 V c :=
  (dat1 V c).arrAt_eq_of_cover 3 (G1 V c) (fun t hf => flushed1_eq V c t hf) cover1_3arr

end Final1

end Cert.KernelIdeal.Hand

end
-- ==== Proof.KI.HostReads.lean ====
import proofs.«114833_j82626580840596_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

/-
  What the host's reshapes hold, read at one index, from arbitrary buffer contents `W`.

  Every host operation of the program is a reshape: the result holds, at each index, the operand's element at the same
  row-major position. Before the first kernel: the packed 64 × 262144 integer array is read as 64 × 64 × 4096, entry
  `(g, og, i)` being the packed entry at row `g`, column `og * 4096 + i`; each 1 × 262144 parameter row is read as
  64 × 4096, entry `(og, i)` being the row's entry at column `og * 4096 + i`. Before the second kernel: the 8 × 2048 × 4096
  input is read as 16384 × 4096, row `r` being batch `r / 2048`, position `r % 2048`; the bias of length 4096 is read
  as a 1 × 4096 row. After it: the 16384 × 4096 result is read as 8 × 2048 × 4096, entry `(b, s, o)` being row
  `b * 2048 + s`, column `o`.
-/

noncomputable section

namespace Cert.KernelIdeal.Hand

open Cert.KernelIdeal Cert.KernelIdeal.Gen Idealize.ShloMosaic Idealize.ShloMosaic.ValueIdx

variable (W : Valuation τ sig (Elt Ideal))

/-! ## Each result buffer is the reshape of its operand -/

theorem host0_v0_eq :
    (StableHlo.after (hostOps0 (F := Ideal)) W (Proc.devRef .tc main_v0) : S64x64x4096.Idx → BitVec 32)
      = shapeCast S64x64x4096 (W (Proc.devRef .tc main_arg1) : S64x262144.Idx → BitVec 32) shapeCasts_S64x262144_S64x64x4096 := by
  after_results
  rfl

theorem host0_v1_eq :
    (StableHlo.after (hostOps0 (F := Ideal)) W (Proc.devRef .tc main_v1) : S64x4096.Idx → EReal)
      = shapeCast S64x4096 (W (Proc.devRef .tc main_arg2) : S1x262144.Idx → EReal) shapeCasts_S1x262144_S64x4096 := by
  after_results
  rfl

theorem host0_v2_eq :
    (StableHlo.after (hostOps0 (F := Ideal)) W (Proc.devRef .tc main_v2) : S64x4096.Idx → EReal)
      = shapeCast S64x4096 (W (Proc.devRef .tc main_arg3) : S1x262144.Idx → EReal) shapeCasts_S1x262144_S64x4096 := by
  after_results
  rfl

theorem host1_v4_eq :
    (StableHlo.after (hostOps1 (F := Ideal)) W (Proc.devRef .tc main_v4) : S16384x4096.Idx → EReal)
      = shapeCast S16384x4096 (W (Proc.devRef .tc main_arg0) : S8x2048x4096.Idx → EReal) shapeCasts_S8x2048x4096_S16384x4096 := by
  after_results
  rfl

theorem host1_v5_eq :
    (StableHlo.after (hostOps1 (F := Ideal)) W (Proc.devRef .tc main_v5) : S1x4096.Idx → EReal)
      = shapeCast S1x4096 (W (Proc.devRef .tc main_arg4) : S4096.Idx → EReal) shapeCasts_S4096_S1x4096 := by
  after_results
  rfl

theorem host2_v7_eq :
    (StableHlo.after (hostOps2 (F := Ideal)) W (Proc.devRef .tc main_v7) : S8x2048x4096.Idx → EReal)
      = shapeCast S8x2048x4096 (W (Proc.devRef .tc main_v6) : S16384x4096.Idx → EReal) shapeCasts_S16384x4096_S8x2048x4096 := by
  after_results
  rfl

/-! ## The reshapes read at an index -/

/-- 64 × 262144 read as 64 × 64 × 4096: position `(g * 64 + og) * 4096 + i = g * 262144 + (og * 4096 + i)`. -/
theorem cast_packed {α : Type} (y : S64x262144.Idx → α) (g og : Fin 64) (i : Fin 4096) :
    shapeCast S64x64x4096 y shapeCasts_S64x262144_S64x64x4096 (ix3 g og i) = y (ix2 g ⟨og.val * 4096 + i.val, by omega⟩) :=
  shapeCast_apply y shapeCasts_S64x262144_S64x64x4096 (ix3 g og i) (ix2 g ⟨og.val * 4096 + i.val, by omega⟩)
    (by rw [Shape.rowMajor_val_two, Shape.rowMajor_val_three]
        show g.val * 262144 + (og.val * 4096 + i.val) = (g.val * 64 + og.val) * 4096 + i.val
        omega)

/-- 1 × 262144 read as 64 × 4096: position `og * 4096 + i` of the one row. -/
theorem cast_row {α : Type} (y : S1x262144.Idx → α) (og : Fin 64) (i : Fin 4096) :
    shapeCast S64x4096 y shapeCasts_S1x262144_S64x4096 (ix2 og i) = y (ix2 (0 : Fin 1) ⟨og.val * 4096 + i.val, by omega⟩) :=
  shapeCast_apply y shapeCasts_S1x262144_S64x4096 (ix2 og i) (ix2 (0 : Fin 1) ⟨og.val * 4096 + i.val, by omega⟩)
    (by rw [Shape.rowMajor_val_two, Shape.rowMajor_val_two]
        show 0 * 262144 + (og.val * 4096 + i.val) = og.val * 4096 + i.val
        omega)

/-- 8 × 2048 × 4096 read as 16384 × 4096: row `r` is batch `r / 2048`, position `r % 2048`. -/
theorem cast_rows {α : Type} (y : S8x2048x4096.Idx → α) (r : Fin 16384) (k : Fin 4096) :
    shapeCast S16384x4096 y shapeCasts_S8x2048x4096_S16384x4096 (ix2 r k)
      = y (ix3 (⟨r.val / 2048, by omega⟩ : Fin 8) (⟨r.val % 2048, by omega⟩ : Fin 2048) k) :=
  shapeCast_apply y shapeCasts_S8x2048x4096_S16384x4096 (ix2 r k)
    (ix3 (⟨r.val / 2048, by omega⟩ : Fin 8) (⟨r.val % 2048, by omega⟩ : Fin 2048) k)
    (by rw [Shape.rowMajor_val_three, Shape.rowMajor_val_two]
        show (r.val / 2048 * 2048 + r.val % 2048) * 4096 + k.val = r.val * 4096 + k.val
        omega)

/-- A vector of length 4096 read as a 1 × 4096 row. -/
theorem cast_bias {α : Type} (y : S4096.Idx → α) (o : Fin 4096) :
    shapeCast S1x4096 y shapeCasts_S4096_S1x4096 (ix2 (0 : Fin 1) o) = y (ix1 o) :=
  shapeCast_apply y shapeCasts_S4096_S1x4096 (ix2 (0 : Fin 1) o) (ix1 o)
    (by rw [Shape.rowMajor_val_one, Shape.rowMajor_val_two]
        show o.val = 0 * 4096 + o.val
        omega)

/-- 16384 × 4096 read as 8 × 2048 × 4096: entry `(b, s, o)` is row `b * 2048 + s`, column `o`. -/
theorem cast_out {α : Type} (y : S16384x4096.Idx → α) (b : Fin 8) (s : Fin 2048) (o : Fin 4096) :
    shapeCast S8x2048x4096 y shapeCasts_S16384x4096_S8x2048x4096 (ix3 b s o)
      = y (ix2 (⟨b.val * 2048 + s.val, by omega⟩ : Fin 16384) o) :=
  shapeCast_apply y shapeCasts_S16384x4096_S8x2048x4096 (ix3 b s o) (ix2 (⟨b.val * 2048 + s.val, by omega⟩ : Fin 16384) o)
    (by rw [Shape.rowMajor_val_two, Shape.rowMajor_val_three]
        show (b.val * 2048 + s.val) * 4096 + o.val = (b.val * 2048 + s.val) * 4096 + o.val
        rfl)

/-! ## The host stretches read at an index -/

/-- The integer array handed to the first kernel, at `(g, og, i)`. -/
theorem host0_v0 (g og : Fin 64) (i : Fin 4096) :
    (StableHlo.after (hostOps0 (F := Ideal)) W (Proc.devRef .tc main_v0) : S64x64x4096.Idx → BitVec 32) (ix3 g og i)
      = (W (Proc.devRef .tc main_arg1) : S64x262144.Idx → BitVec 32) (ix2 g ⟨og.val * 4096 + i.val, by omega⟩) :=
  (congrFun (host0_v0_eq W) _).trans (cast_packed _ g og i)

/-- The scale handed to the first kernel, at `(og, i)`. -/
theorem host0_v1 (og : Fin 64) (i : Fin 4096) :
    (StableHlo.after (hostOps0 (F := Ideal)) W (Proc.devRef .tc main_v1) : S64x4096.Idx → EReal) (ix2 og i)
      = (W (Proc.devRef .tc main_arg2) : S1x262144.Idx → EReal) (ix2 (0 : Fin 1) ⟨og.val * 4096 + i.val, by omega⟩) :=
  (congrFun (host0_v1_eq W) _).trans (cast_row _ og i)

/-- The zero point handed to the first kernel, at `(og, i)`. -/
theorem host0_v2 (og : Fin 64) (i : Fin 4096) :
    (StableHlo.after (hostOps0 (F := Ideal)) W (Proc.devRef .tc main_v2) : S64x4096.Idx → EReal) (ix2 og i)
      = (W (Proc.devRef .tc main_arg3) : S1x262144.Idx → EReal) (ix2 (0 : Fin 1) ⟨og.val * 4096 + i.val, by omega⟩) :=
  (congrFun (host0_v2_eq W) _).trans (cast_row _ og i)

/-- The input handed to the second kernel, at row `r`, column `k`. -/
theorem host1_v4 (r : Fin 16384) (k : Fin 4096) :
    (StableHlo.after (hostOps1 (F := Ideal)) W (Proc.devRef .tc main_v4) : S16384x4096.Idx → EReal) (ix2 r k)
      = (W (Proc.devRef .tc main_arg0) : S8x2048x4096.Idx → EReal)
          (ix3 (⟨r.val / 2048, by omega⟩ : Fin 8) (⟨r.val % 2048, by omega⟩ : Fin 2048) k) :=
  (congrFun (host1_v4_eq W) _).trans (cast_rows _ r k)

/-- The bias row handed to the second kernel, at column `o`. -/
theorem host1_v5 (o : Fin 4096) :
    (StableHlo.after (hostOps1 (F := Ideal)) W (Proc.devRef .tc main_v5) : S1x4096.Idx → EReal) (ix2 (0 : Fin 1) o)
      = (W (Proc.devRef .tc main_arg4) : S4096.Idx → EReal) (ix1 o) :=
  (congrFun (host1_v5_eq W) _).trans (cast_bias _ o)

/-- The program's result, at `(b, s, o)`, from the second kernel's output. -/
theorem host2_v7 (b : Fin 8) (s : Fin 2048) (o : Fin 4096) :
    (StableHlo.after (hostOps2 (F := Ideal)) W (Proc.devRef .tc main_v7) : S8x2048x4096.Idx → EReal) (ix3 b s o)
      = (W (Proc.devRef .tc main_v6) : S16384x4096.Idx → EReal) (ix2 (⟨b.val * 2048 + s.val, by omega⟩ : Fin 16384) o) :=
  (congrFun (host2_v7_eq W) _).trans (cast_out _ b s o)

end Cert.KernelIdeal.Hand

end
-- ==== Proof.LibAccum.lean ====
import Idealize.ShloMosaic.PureOps.Ideal

/-
  Sums taken block by block.

  A sum over `n * b` consecutive positions is the sum, over the `n` blocks of `b` consecutive positions, of each
  block's own sum. Only commutativity and associativity of addition are used, so the statement holds in every additive
  commutative monoid, and in particular on the extended reals, where addition is commutative and associative although
  it is not cancellative. A running total that starts from `0 + (block 0)` and then adds one block per step is, after
  the last block, the whole sum; adding a further term `c` to both keeps them equal.
-/

noncomputable section

namespace QLin

open scoped BigOperators

section General

variable {M : Type*} [AddCommMonoid M]

/-- Position `j` of block `k`, among `n` blocks of `b` positions each, is a position below `n * b`:
    `k * b + j < k * b + b = (k + 1) * b ≤ n * b`. -/
theorem block_lt {n b : ℕ} (k : Fin n) (j : Fin b) : k.val * b + j.val < n * b := by
  have hk : k.val + 1 ≤ n := k.isLt
  calc k.val * b + j.val < k.val * b + b := Nat.add_lt_add_left j.isLt _
    _ = (k.val + 1) * b := by rw [Nat.add_mul, Nat.one_mul]
    _ ≤ n * b := Nat.mul_le_mul_right b hk

/-- A sum over `n * b` positions is the sum, over the `n` blocks, of the sum over each block's `b` positions. -/
theorem sum_blocks (n b : ℕ) (f : Fin (n * b) → M) :
    ∑ i : Fin (n * b), f i = ∑ k : Fin n, ∑ j : Fin b, f ⟨k.val * b + j.val, block_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The running total of the blocks `g 0, g 1, …`: it starts at `0 + g 0` and adds one block per step. -/
def acc (g : ℕ → M) : ℕ → M
  | 0 => 0 + g 0
  | k + 1 => acc g k + g (k + 1)

theorem acc_zero (g : ℕ → M) : acc g 0 = 0 + g 0 := rfl

theorem acc_succ (g : ℕ → M) (k : ℕ) : acc g (k + 1) = acc g k + g (k + 1) := rfl

/-- After step `k` the running total is the sum of the blocks `0, …, k`. -/
theorem acc_eq_sum (g : ℕ → M) (k : ℕ) : acc g k = ∑ t ∈ Finset.range (k + 1), g t := by
  induction k with
  | zero => rw [acc_zero, zero_add, Finset.sum_range_one]
  | succ k ih => rw [acc_succ, ih, Finset.sum_range_succ _ (k + 1)]

/-- A family of `n` blocks as a sequence, continued by `0` past the last block. -/
def ext {n : ℕ} (g : Fin n → M) (t : ℕ) : M := if h : t < n then g ⟨t, h⟩ else 0

theorem ext_val {n : ℕ} (g : Fin n → M) (k : Fin n) : ext g k.val = g k := dif_pos k.isLt

/-- The running total of `n + 1` blocks, after the last one, is the sum of all the blocks. -/
theorem acc_ext_last {n : ℕ} (g : Fin (n + 1) → M) : acc (ext g) n = ∑ k : Fin (n + 1), g k := by
  rw [acc_eq_sum, Finset.sum_range]
  exact Finset.sum_congr rfl fun k _ => ext_val g k

end General

/-- The inner product of block `k` of `a` and `b`: positions `512 k, …, 512 k + 511` of the 4096. -/
def blk (a b : Fin 4096 → EReal) (k : Fin 8) : EReal :=
  ∑ j : Fin 512, a ⟨k.val * 512 + j.val, block_lt (n := 8) (b := 512) k j⟩
    * b ⟨k.val * 512 + j.val, block_lt (n := 8) (b := 512) k j⟩

/-- The eight block inner products add up to the whole inner product. -/
theorem sum_blk (a b : Fin 4096 → EReal) : ∑ k : Fin 8, blk a b k = ∑ i : Fin 4096, a i * b i :=
  (sum_blocks 8 512 (fun i : Fin (8 * 512) => a i * b i)).symm

/-- Accumulating the eight block inner products one at a time from `0 + (block 0)`, then adding `c`, gives the whole
    inner product plus `c`. -/
theorem acc_blk (a b : Fin 4096 → EReal) (c : EReal) :
    acc (ext (blk a b)) 7 + c = (∑ i : Fin 4096, a i * b i) + c := by
  rw [acc_ext_last (n := 7) (blk a b), sum_blk]

/-- The same with the eight steps written out. -/
theorem acc_blk_unrolled (a b : Fin 4096 → EReal) (c : EReal) :
    (0 : EReal) + blk a b 0 + blk a b 1 + blk a b 2 + blk a b 3 + blk a b 4 + blk a b 5 + blk a b 6 + blk a b 7 + c
      = (∑ i : Fin 4096, a i * b i) + c := by
  rw [← sum_blk a b, Fin.sum_univ_eight, zero_add]

/-- The cleared accumulator `0` plus the eight block inner products summed over `s = 0, …, 7` (the block number written
    `s % 8`, which is `s` itself below 8), then plus `c`, is the whole inner product plus `c`. -/
theorem acc_range (a b : Fin 4096 → EReal) (c : EReal) :
    (0 + ∑ s ∈ Finset.range 8, ∑ k : Fin 512,
        a ⟨(s % 8) * 512 + k.val, by omega⟩ * b ⟨(s % 8) * 512 + k.val, by omega⟩) + c
      = (∑ i : Fin 4096, a i * b i) + c := by
  rw [zero_add, Finset.sum_range, ← sum_blk a b]
  refine congrArg (· + c) (Finset.sum_congr rfl fun s _ => ?_)
  unfold blk
  refine Finset.sum_congr rfl fun k _ => ?_
  have hs : s.val % 8 = s.val := Nat.mod_eq_of_lt s.isLt
  have e : (⟨(s.val % 8) * 512 + k.val, by omega⟩ : Fin 4096)
      = ⟨s.val * 512 + k.val, block_lt (n := 8) (b := 512) s k⟩ :=
    Fin.ext (by show (s.val % 8) * 512 + k.val = s.val * 512 + k.val; rw [hs])
  rw [e]

end QLin

end
-- ==== Proof.KI.Value.lean ====
/-
  The idealized kernel program's result, read through its whole run: the last reshape of the second region's output
  array, whose entries are the blockwise inner products of the rows of `x` with the rows of the dequantised weight that
  the first region wrote, plus the bias — regrouped, it is the specification's inner product over all 4096 entries.
-/
import proofs.«114833_j82626580840596_2_alg».proof.Proof.KI.Run
import proofs.«114833_j82626580840596_2_alg».proof.Proof.KI.Final0
import proofs.«114833_j82626580840596_2_alg».proof.Proof.KI.Final1
import proofs.«114833_j82626580840596_2_alg».proof.Proof.KI.HostReads
import proofs.«114833_j82626580840596_2_alg».proof.Proof.LibAccum
import proofs.«114833_j82626580840596_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Value

open ValueIdx

variable (m : (ℓ : Loc nD τ sig) → Buf (Elt Ideal) ℓ) (ρ : Dev nD → PrngReg)

/-! ## The arrays the second region is entered with, in terms of the launch memory -/

/-- The left operand is `x` with its two leading axes merged. -/
theorem x_row (c : Dev nD) (r : Fin 16384) (k : Fin 4096) :
    arrX (V3 m ρ) c (ix2 r k)
      = ((m ((c : Thread nD τ).loc main_arg0)) : S8x2048x4096.Idx → EReal) (ix3 (⟨r.val / 2048, by omega⟩ : Fin 8) (⟨r.val % 2048, by omega⟩ : Fin 2048) k) := by
  show (StableHlo.after (hostOps1 (F := Ideal)) (W2 m ρ c) (Proc.devRef .tc main_v4) : S16384x4096.Idx → EReal) (ix2 r k) = _
  rw [host1_v4 (W2 m ρ c) r k]
  have e : W2 m ρ c (Proc.devRef .tc main_arg0) = (m ((c : Thread nD τ).loc main_arg0)) :=
    (W2_of_ne m ρ c main_arg0 (by decide)).trans ((hostOps0_keeps (W0 m ρ c) main_arg0 (by decide) (by decide) (by decide)).trans rfl)
  rw [e]

/-- The bias row is `bias`. -/
theorem b_row (c : Dev nD) (o : Fin 4096) :
    arrB (V3 m ρ) c (ix2 (0 : Fin 1) o) = ((m ((c : Thread nD τ).loc main_arg4)) : S4096.Idx → EReal) (ix1 o) := by
  show (StableHlo.after (hostOps1 (F := Ideal)) (W2 m ρ c) (Proc.devRef .tc main_v5) : S1x4096.Idx → EReal) (ix2 (0 : Fin 1) o) = _
  rw [host1_v5 (W2 m ρ c) o]
  have e : W2 m ρ c (Proc.devRef .tc main_arg4) = (m ((c : Thread nD τ).loc main_arg4)) :=
    (W2_of_ne m ρ c main_arg4 (by decide)).trans ((hostOps0_keeps (W0 m ρ c) main_arg4 (by decide) (by decide) (by decide)).trans rfl)
  rw [e]

/-- The three arrays the first region is entered with are the packed weight, the scales and the zero points, regrouped. -/
theorem v0_at (c : Dev nD) (g og : Fin 64) (i : Fin 4096) :
    (V1 m ρ c main_v0 : S64x64x4096.Idx → BitVec 32) (ix3 g og i)
      = ((m ((c : Thread nD τ).loc main_arg1)) : S64x262144.Idx → BitVec 32) (ix2 g (⟨og.val * 4096 + i.val, by omega⟩ : Fin 262144)) :=
  host0_v0 (W0 m ρ c) g og i
theorem v1_at (c : Dev nD) (og : Fin 64) (i : Fin 4096) :
    (V1 m ρ c main_v1 : S64x4096.Idx → EReal) (ix2 og i)
      = ((m ((c : Thread nD τ).loc main_arg2)) : S1x262144.Idx → EReal) (ix2 (0 : Fin 1) (⟨og.val * 4096 + i.val, by omega⟩ : Fin 262144)) :=
  host0_v1 (W0 m ρ c) og i
theorem v2_at (c : Dev nD) (og : Fin 64) (i : Fin 4096) :
    (V1 m ρ c main_v2 : S64x4096.Idx → EReal) (ix2 og i)
      = ((m ((c : Thread nD τ).loc main_arg3)) : S1x262144.Idx → EReal) (ix2 (0 : Fin 1) (⟨og.val * 4096 + i.val, by omega⟩ : Fin 262144)) :=
  host0_v2 (W0 m ρ c) og i

/-- The right operand is the dequantised weight: what the first region left. -/
theorem w_row (c : Dev nD) (o i : Fin 4096) :
    arrW (V3 m ρ) c (ix2 o i) = QLin.wr (m ((c : Thread nD τ).loc main_arg1)) (m ((c : Thread nD τ).loc main_arg2)) (m ((c : Thread nD τ).loc main_arg3)) o i := by
  have e : arrW (V3 m ρ) c = G0 (V1 m ρ) c := by
    show StableHlo.after (hostOps1 (F := Ideal)) (W2 m ρ c) (Proc.devRef .tc main_v3) = _
    rw [hostOps1_keeps (W2 m ρ c) main_v3 (by decide) (by decide)]
    exact (W2_arr m ρ c 3).trans (final0 (V1 m ρ) c)
  rw [e]
  show G0at (V1 m ρ) c o i = _
  unfold G0at QLin.wr QLin.grp QLin.col
  rw [v0_at m ρ c, v1_at m ρ c, v2_at m ρ c]

/-! ## The result -/

/-- The result array at (b, s, o) is the specification's value there. -/
theorem value_at (c : Dev nD) (b : Fin 8) (s : Fin 2048) (o : Fin 4096) :
    (W5 m ρ c (Proc.devRef .tc main_v7) : S8x2048x4096.Idx → EReal) (ix3 b s o)
      = QLin.Gat (m ((c : Thread nD τ).loc main_arg0)) (m ((c : Thread nD τ).loc main_arg1)) (m ((c : Thread nD τ).loc main_arg2)) (m ((c : Thread nD τ).loc main_arg3)) (m ((c : Thread nD τ).loc main_arg4)) b s o := by
  refine (host2_v7 (W4 m ρ c) b s o).trans ?_
  have e : (W4 m ρ c (Proc.devRef .tc main_v6) : S16384x4096.Idx → EReal) = G1 (V3 m ρ) c :=
    (W4_arr m ρ c 3).trans (final1 (V3 m ρ) c)
  rw [e]
  show G1at (V3 m ρ) c (⟨b.val * 2048 + s.val, by omega⟩ : Fin 16384) o = _
  unfold G1at QLin.Gat
  simp only [x_row m ρ c, w_row m ρ c, b_row m ρ c]
  have eb : (b.val * 2048 + s.val) / 2048 = b.val := by omega
  have es : (b.val * 2048 + s.val) % 2048 = s.val := by omega
  simp only [eb, es, Fin.eta]
  exact QLin.acc_range (fun i => ((m ((c : Thread nD τ).loc main_arg0)) : S8x2048x4096.Idx → EReal) (ix3 b s i))
    (fun i => QLin.wr (m ((c : Thread nD τ).loc main_arg1)) (m ((c : Thread nD τ).loc main_arg2)) (m ((c : Thread nD τ).loc main_arg3)) o i)
    (((m ((c : Thread nD τ).loc main_arg4)) : S4096.Idx → EReal) (ix1 o))

/-- The whole result array is the specification. -/
theorem value_v7 (c : Dev nD) :
    W5 m ρ c (Proc.devRef .tc main_v7)
      = QLin.G (m ((c : Thread nD τ).loc main_arg0)) (m ((c : Thread nD τ).loc main_arg1)) (m ((c : Thread nD τ).loc main_arg2)) (m ((c : Thread nD τ).loc main_arg3)) (m ((c : Thread nD τ).loc main_arg4)) := by
  funext j
  obtain ⟨b, s, o, rfl⟩ : ∃ (b : Fin 8) (s : Fin 2048) (o : Fin 4096), j = ix3 b s o := ⟨j 0, j 1, j 2, eq_ix3 j⟩
  exact value_at m ρ c b s o

/-- Every weakly fair execution of the idealized kernel program ends with the result array at the specification and the
    arguments as launched. -/
theorem kernel_run : θ_run (defs (F := Ideal)) (onTc (τ := τ) (main (F := Ideal))) ⟨m, fun _ => 0, ρ⟩ (fun r => ∀ c : Dev nD,
      r.2.mem ((c.tc : Thread nD τ).loc main_v7) = QLin.G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => ⟨(h c).1.trans (value_v7 m ρ c), (h c).2⟩) (run_value (F := Ideal) m ρ)

end Value

end Cert.KernelIdeal.Hand

end
-- ==== Proof.lean ====
/-
  The certificate of the quantised linear layer: `x · Wᵀ + bias` with the 4096 × 4096 weight `W` kept as 8-bit codes in a
  packed 64 × 262144 integer array beside one scale and one zero point per packed column, `W = (code − zero) · scale`.

  The kernel program dequantises the weight once, in a first launch, sixteen slabs of 256 rows each, and multiplies in a
  second launch over a 16 × 2 × 8 grid: for each 1024 × 2048 tile of the result it accumulates, over the eight blocks of
  512 along the contracted dimension, the products of a block of `x` with a block of the weight, and at the eighth block adds
  the bias row and writes the tile back. The reference dequantises the packed array as a whole, reshapes it to
  4096 × 4096, and contracts `x` with it in one product before adding the bias.

  On the extended reals both are the function `QLin.G` (Proof/Spec.lean): the reshapes on either side pair weight row `o`,
  entry `i` with packed row `o / 64`, column `(o % 64) · 4096 + i`; a change of float format is the identity; the kernel's
  eight partial sums started from the cleared accumulator regroup to the reference's one sum over 4096 terms by
  associativity and commutativity of addition alone, so no finiteness of the inputs is used. The frames of the two kernel
  programs are proved region by region (Proof/K, Proof/KI: each region's body run at a symbolic grid point, the second
  region's accumulator carried from point to point in the region's invariant); the reference's frame is its run with the
  result dropped; the idealisation rewrote nothing, so there is nothing to preserve.
-/
import proofs.«114833_j82626580840596_2_alg».proof.Defs
import proofs.«114833_j82626580840596_2_alg».proof.Proof.Frames
import proofs.«114833_j82626580840596_2_alg».proof.Proof.KI.Value
import proofs.«114833_j82626580840596_2_alg».proof.Proof.RefIsSpec
import Idealize.ShloMosaic.Adequacy
import Idealize.ShloMosaic.Init

noncomputable section

namespace Cert.Proof

open Idealize.ShloMosaic Idealize.SL.Sem

/-- Run from memories that agree on the arguments, the idealized kernel program and the idealized reference both end with
    their result arrays at the specification of the common arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => QLin.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Hand.kernel_run m ρ, ?_⟩
  refine (θ_run Cert.ReferenceIdeal.defs _ _).mono (fun _ h c => ⟨(h c).1.trans ?_, (h c).2⟩)
    (Cert.ReferenceIdeal.RefSpec.ref_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
